-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1514x6 : Shape := ⟨3, ![32, 1514, 6]⟩
abbrev S32x512x6 : Shape := ⟨3, ![32, 512, 6]⟩
abbrev S32x512 : Shape := ⟨2, ![32, 512]⟩
abbrev S32x1602x6 : Shape := ⟨3, ![32, 1602, 6]⟩
abbrev S32x1514x1602 : Shape := ⟨3, ![32, 1514, 1602]⟩
abbrev S_ : Shape := ⟨0, ![]⟩

class Facts : Prop where
  bcast_S_S32x1514x6 : S_.BroadcastsInDim S32x1514x6 (![] : Fin 0 → Fin S32x1514x6.rank)
  reducesTo_S32x1514x6_S_d0_1_2 : S32x1514x6.ReducesTo [0, 1, 2] S_
  h_S_ : 0 < S_.numel
  bcast_S_S32x512x6 : S_.BroadcastsInDim S32x512x6 (![] : Fin 0 → Fin S32x512x6.rank)
  reducesTo_S32x512x6_S_d0_1_2 : S32x512x6.ReducesTo [0, 1, 2] S_
  bcast_S_S32x1602x6 : S_.BroadcastsInDim S32x1602x6 (![] : Fin 0 → Fin S32x1602x6.rank)
  reducesTo_S32x1602x6_S_d0_1_2 : S32x1602x6.ReducesTo [0, 1, 2] S_
  bcast_S_S32x1514x1602 : S_.BroadcastsInDim S32x1514x1602 (![] : Fin 0 → Fin S32x1514x1602.rank)
  reducesTo_S32x1514x1602_S_d0_1_2 : S32x1514x1602.ReducesTo [0, 1, 2] S_

variable [Facts]

def fn_part1 {F : FTy → Type} [FloatOps F] (main_v13 : IVec S_ 1) (main_v16 : IVec S32x1514x1602 1) : IVec S_ 1 :=
  let main_c_5 : IVec S_ 1 := constantI S_ 1 1#1
  let main_v17 : IVec S_ 1 := (fun x v => Host.reduce IntOp.andi x v reducesTo_S32x1514x1602_S_d0_1_2 h_S_) main_v16 main_c_5
  let main_v18 : IVec S_ 1 := andi main_v13 main_v17
  main_v18

def fn {F : FTy → Type} [FloatOps F] (main_arg0 : FVec F S32x1514x6 .f32) (main_arg1 : FVec F S32x512x6 .f32) (main_arg2 : IVec S32x512 32) (main_arg3 : FVec F S32x1602x6 .f32) (main_arg4 : FVec F S32x1514x1602 .f32) : IVec S_ 1 :=
  let main_v0 : FVec F S32x1514x6 .f32 := Host.absf main_arg0
  let main_cst : FVec F S_ .f32 := constant S_ .f32 0x7F800000#32
  let main_v1 : FVec F S32x1514x6 .f32 := broadcastInDim S32x1514x6 ![] bcast_S_S32x1514x6 main_cst
  let main_v2 : IVec S32x1514x6 1 := cmpf .olt main_v0 main_v1
  let main_c : IVec S_ 1 := constantI S_ 1 1#1
  let main_v3 : IVec S_ 1 := (fun x v => Host.reduce IntOp.andi x v reducesTo_S32x1514x6_S_d0_1_2 h_S_) main_v2 main_c
  let main_v4 : FVec F S32x512x6 .f32 := Host.absf main_arg1
  let main_cst_0 : FVec F S_ .f32 := constant S_ .f32 0x7F800000#32
  let main_v5 : FVec F S32x512x6 .f32 := broadcastInDim S32x512x6 ![] bcast_S_S32x512x6 main_cst_0
  let main_v6 : IVec S32x512x6 1 := cmpf .olt main_v4 main_v5
  let main_c_1 : IVec S_ 1 := constantI S_ 1 1#1
  let main_v7 : IVec S_ 1 := (fun x v => Host.reduce IntOp.andi x v reducesTo_S32x512x6_S_d0_1_2 h_S_) main_v6 main_c_1
  let main_v8 : IVec S_ 1 := andi main_v3 main_v7
  let main_v9 : FVec F S32x1602x6 .f32 := Host.absf main_arg3
  let main_cst_2 : FVec F S_ .f32 := constant S_ .f32 0x7F800000#32
  let main_v10 : FVec F S32x1602x6 .f32 := broadcastInDim S32x1602x6 ![] bcast_S_S32x1602x6 main_cst_2
  let main_v11 : IVec S32x1602x6 1 := cmpf .olt main_v9 main_v10
  let main_c_3 : IVec S_ 1 := constantI S_ 1 1#1
  let main_v12 : IVec S_ 1 := (fun x v => Host.reduce IntOp.andi x v reducesTo_S32x1602x6_S_d0_1_2 h_S_) main_v11 main_c_3
  let main_v13 : IVec S_ 1 := andi main_v8 main_v12
  let main_v14 : FVec F S32x1514x1602 .f32 := Host.absf main_arg4
  let main_cst_4 : FVec F S_ .f32 := constant S_ .f32 0x7F800000#32
  let main_v15 : FVec F S32x1514x1602 .f32 := broadcastInDim S32x1514x1602 ![] bcast_S_S32x1514x1602 main_cst_4
  let main_v16 : IVec S32x1514x1602 1 := cmpf .olt main_v14 main_v15
  fn_part1 (F := F) main_v13 main_v16
-- ==== Kernel.lean ====
abbrev S32x1514x6 : Shape := ⟨3, ![32, 1514, 6]⟩
abbrev S32x512x6 : Shape := ⟨3, ![32, 512, 6]⟩
abbrev S32x512 : Shape := ⟨2, ![32, 512]⟩
abbrev S32x1602x6 : Shape := ⟨3, ![32, 1602, 6]⟩
abbrev S32x1514x1602 : Shape := ⟨3, ![32, 1514, 1602]⟩
abbrev S32x1x128 : Shape := ⟨3, ![32, 1, 128]⟩
abbrev S1x1514x1602 : Shape := ⟨3, ![1, 1514, 1602]⟩
abbrev S1x1602x6 : Shape := ⟨3, ![1, 1602, 6]⟩
abbrev S1x1514x6 : Shape := ⟨3, ![1, 1514, 6]⟩
abbrev S1x1x128 : Shape := ⟨3, ![1, 1, 128]⟩
abbrev S1602x6 : Shape := ⟨2, ![1602, 6]⟩
abbrev S1602x12 : Shape := ⟨2, ![1602, 12]⟩
abbrev S1x1 : Shape := ⟨2, ![1, 1]⟩
abbrev S1x136x1602 : Shape := ⟨3, ![1, 136, 1602]⟩
abbrev S136x1602 : Shape := ⟨2, ![136, 1602]⟩
abbrev S1x136x6 : Shape := ⟨3, ![1, 136, 6]⟩
abbrev S136x6 : Shape := ⟨2, ![136, 6]⟩
abbrev S136x12 : Shape := ⟨2, ![136, 12]⟩
abbrev S6 : Shape := ⟨1, ![6]⟩
abbrev S1x6 : Shape := ⟨2, ![1, 6]⟩
abbrev S1 : Shape := ⟨1, ![1]⟩
abbrev S1x18x1602 : Shape := ⟨3, ![1, 18, 1602]⟩
abbrev S18x1602 : Shape := ⟨2, ![18, 1602]⟩
abbrev S1x18x6 : Shape := ⟨3, ![1, 18, 6]⟩
abbrev S18x6 : Shape := ⟨2, ![18, 6]⟩
abbrev S18x12 : Shape := ⟨2, ![18, 12]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩
abbrev S32x512x1 : Shape := ⟨3, ![32, 512, 1]⟩
abbrev S32x512x6x1 : Shape := ⟨4, ![32, 512, 6, 1]⟩
abbrev S1x1x1x1 : Shape := ⟨4, ![1, 1, 1, 1]⟩

abbrev nBuf : Space → Nat
  | .hbm => 59
  | .vmem => 8
  | .smem => 0
  | _ => 0

abbrev bufTy : (tb : Table) → Fin (tcTables nBuf tb) → BufTy
  | .hbm, ⟨0, _⟩ => ⟨S32x1514x6, .f32⟩
  | .hbm, ⟨1, _⟩ => ⟨S32x512x6, .f32⟩
  | .hbm, ⟨2, _⟩ => ⟨S32x512, .i32⟩
  | .hbm, ⟨3, _⟩ => ⟨S32x1602x6, .f32⟩
  | .hbm, ⟨4, _⟩ => ⟨S32x1514x1602, .f32⟩
  | .hbm, ⟨5, _⟩ => ⟨S32x1x128, .f32⟩
  | .hbm, ⟨6, _⟩ => ⟨S32x1x1, .f32⟩
  | .hbm, ⟨7, _⟩ => ⟨S32, .f32⟩
  | .hbm, ⟨8, _⟩ => ⟨S_, .f32⟩
  | .hbm, ⟨9, _⟩ => ⟨S_, .f32⟩
  | .hbm, ⟨10, _⟩ => ⟨S32x512x1, .i32⟩
  | .hbm, ⟨11, _⟩ => ⟨S32x512x6, .i32⟩
  | .hbm, ⟨12, _⟩ => ⟨S_, .i32⟩
  | .hbm, ⟨13, _⟩ => ⟨S32x512x6, .i32⟩
  | .hbm, ⟨14, _⟩ => ⟨S32x512x6, .i1⟩
  | .hbm, ⟨15, _⟩ => ⟨S_, .i32⟩
  | .hbm, ⟨16, _⟩ => ⟨S32x512x6, .i32⟩
  | .hbm, ⟨17, _⟩ => ⟨S32x512x6, .i32⟩
  | .hbm, ⟨18, _⟩ => ⟨S32x512x6, .i32⟩
  | .hbm, ⟨19, _⟩ => ⟨S32x512x6x1, .i32⟩
  | .hbm, ⟨20, _⟩ => ⟨S1, .i32⟩
  | .hbm, ⟨21, _⟩ => ⟨S_, .i32⟩
  | .hbm, ⟨22, _⟩ => ⟨S32x512x6x1, .i32⟩
  | .hbm, ⟨23, _⟩ => ⟨S32x512x6x1, .i1⟩
  | .hbm, ⟨24, _⟩ => ⟨S1x1x1x1, .i32⟩
  | .hbm, ⟨25, _⟩ => ⟨S32x512x6x1, .i32⟩
  | .hbm, ⟨26, _⟩ => ⟨S32x512x6x1, .i1⟩
  | .hbm, ⟨27, _⟩ => ⟨S32x512x6x1, .i1⟩
  | .hbm, ⟨28, _⟩ => ⟨S_, .i1⟩
  | .hbm, ⟨29, _⟩ => ⟨S32x512x6, .i1⟩
  | .hbm, ⟨30, _⟩ => ⟨S32x512x6, .f32⟩
  | .hbm, ⟨31, _⟩ => ⟨S_, .f32⟩
  | .hbm, ⟨32, _⟩ => ⟨S32x512x6, .f32⟩
  | .hbm, ⟨33, _⟩ => ⟨S32x512x6, .f32⟩
  | .hbm, ⟨34, _⟩ => ⟨S_, .f32⟩
  | .hbm, ⟨35, _⟩ => ⟨S32x512, .f32⟩
  | .hbm, ⟨36, _⟩ => ⟨S32x512x1, .f32⟩
  | .hbm, ⟨37, _⟩ => ⟨S32x512x6, .f32⟩
  | .hbm, ⟨38, _⟩ => ⟨S32x512x6, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S32x512x6, .f32⟩
  | .hbm, ⟨43, _⟩ => ⟨S32x512x6, .f32⟩
  | .hbm, ⟨44, _⟩ => ⟨S_, .f32⟩
  | .hbm, ⟨45, _⟩ => ⟨S32x512x6, .f32⟩
  | .hbm, ⟨46, _⟩ => ⟨S32x512x6, .f32⟩
  | .hbm, ⟨47, _⟩ => ⟨S32x512x6, .f32⟩
  | .hbm, ⟨48, _⟩ => ⟨S32x512x6, .f32⟩
  | .hbm, ⟨49, _⟩ => ⟨S_, .f32⟩
  | .hbm, ⟨50, _⟩ => ⟨S32x512, .f32⟩
  | .hbm, ⟨51, _⟩ => ⟨S32x512, .f32⟩
  | .hbm, ⟨52, _⟩ => ⟨S_, .f32⟩
  | .hbm, ⟨53, _⟩ => ⟨S32x512, .f32⟩
  | .hbm, ⟨54, _⟩ => ⟨S32x512, .f32⟩
  | .hbm, ⟨55, _⟩ => ⟨S_, .f32⟩
  | .hbm, ⟨56, _⟩ => ⟨S_, .f32⟩
  | .hbm, ⟨57, _⟩ => ⟨S32x512, .f32⟩
  | .hbm, ⟨58, _⟩ => ⟨S32x512, .f32⟩
  | .local _ .vmem, ⟨0, _⟩ => ⟨S1x1514x1602, .f32⟩
  | .local _ .vmem, ⟨1, _⟩ => ⟨S1x1514x1602, .f32⟩
  | .local _ .vmem, ⟨2, _⟩ => ⟨S1x1602x6, .f32⟩
  | .local _ .vmem, ⟨3, _⟩ => ⟨S1x1602x6, .f32⟩
  | .local _ .vmem, ⟨4, _⟩ => ⟨S1x1514x6, .f32⟩
  | .local _ .vmem, ⟨5, _⟩ => ⟨S1x1514x6, .f32⟩
  | .local _ .vmem, ⟨6, _⟩ => ⟨S1x1x128, .f32⟩
  | .local _ .vmem, ⟨7, _⟩ => ⟨S1x1x128, .f32⟩
  | _, _ => ⟨S32x1514x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_cst_1 : Ref sig .tc := ⟨.hbm, 39, rfl⟩
abbrev main_cst_2 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_cst_3 : Ref sig .tc := ⟨.hbm, 49, rfl⟩
abbrev main_v14 : Ref sig .tc := ⟨.hbm, 50, rfl⟩
abbrev main_v15 : Ref sig .tc := ⟨.hbm, 51, rfl⟩
abbrev main_cst_4 : Ref sig .tc := ⟨.hbm, 52, rfl⟩
abbrev main_v16 : Ref sig .tc := ⟨.hbm, 53, rfl⟩
abbrev main_v17 : Ref sig .tc := ⟨.hbm, 54, rfl⟩
abbrev main_cst_5 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c11_i32 : BitVec 32 := 11#32
  let v13 : BitVec 32 := Scalar.addi c0_i32 c11_i32
  let c1_i32 : BitVec 32 := 1#32
  ⟨c0_i32, v13, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c136_i32 : BitVec 32 := 136#32
  let v36 : BitVec 32 := Scalar.muli arg5 c136_i32
  v36
def k0_off1 (k0_t1 : Fin k0_t1_loop.trips) : Fin 3 → Nat :=
  let c0_19 : Index := 0#32
  let c0_i32 : BitVec 32 := 0#32
  let c1_i32 : BitVec 32 := 1#32
  let arg5 : BitVec 32 := Scf.iv c0_i32 c1_i32 k0_t1
  let c136_i32 : BitVec 32 := 136#32
  let v36 : BitVec 32 := Scalar.muli arg5 c136_i32
  let v37 : BitVec 32 := v36
  let v38 : Index := Scalar.indexCast v37
  let c0_20 : Index := 0#32
  ![0, v38.toNat, 0]
def k0_off2 (k0_t1 : Fin k0_t1_loop.trips) : Fin 3 → Nat :=
  let c0_21 : Index := 0#32
  let c0_i32 : BitVec 32 := 0#32
  let c1_i32 : BitVec 32 := 1#32
  let arg5 : BitVec 32 := Scf.iv c0_i32 c1_i32 k0_t1
  let c136_i32 : BitVec 32 := 136#32
  let v36 : BitVec 32 := Scalar.muli arg5 c136_i32
  let v37 : BitVec 32 := v36
  let v42 : Index := Scalar.indexCast v37
  let c0_22 : Index := 0#32
  ![0, v42.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1514x1602 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1602x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1514x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x1602x6_S1x1602x6_0_0_0 : ∀ a, (![0, 0, 0] : Fin 3 → Nat) a + S1x1602x6.size a ≤ S1x1602x6.size a
  h_S1x1602x6 : 0 < S1x1602x6.numel
  shapeCasts_S1x1602x6_S1602x6 : S1x1602x6.ShapeCasts S1602x6
  concatenates_S1602x6_S1602x6_S1602x12_d1 : Shape.Concatenates [S1602x6, S1602x6] S1602x12 1
  bitsLt_bf16_f32 : FTy.bits .bf16 < FTy.bits .f32
  h_S1x136x1602 : 0 < S1x136x1602.numel
  shapeCasts_S1x136x1602_S136x1602 : S1x136x1602.ShapeCasts S136x1602
  h_S1x136x6 : 0 < S1x136x6.numel
  shapeCasts_S1x136x6_S136x6 : S1x136x6.ShapeCasts S136x6
  slices_S136x12_o0_0_S136x6 : S136x12.Slices ![0, 0] S136x6
  slices_S136x12_o0_6_S136x6 : S136x12.Slices ![0, 6] S136x6
  reduces_S136x6_S6 : S136x6.Reduces [0] S6
  shapeCasts_S6_S1x6 : S6.ShapeCasts S1x6
  reduces_S1x6_S1 : S1x6.Reduces [1] S1
  shapeCasts_S1_S1x1 : S1.ShapeCasts S1x1
  inb_S1x1514x1602_S1x18x1602_0_1496_0 : ∀ a, (![0, 1496, 0] : Fin 3 → Nat) a + S1x18x1602.size a ≤ S1x1514x1602.size a
  h_S1x18x1602 : 0 < S1x18x1602.numel
  shapeCasts_S1x18x1602_S18x1602 : S1x18x1602.ShapeCasts S18x1602
  inb_S1x1514x6_S1x18x6_0_1496_0 : ∀ a, (![0, 1496, 0] : Fin 3 → Nat) a + S1x18x6.size a ≤ S1x1514x6.size a
  h_S1x18x6 : 0 < S1x18x6.numel
  shapeCasts_S1x18x6_S18x6 : S1x18x6.ShapeCasts S18x6
  slices_S18x12_o0_0_S18x6 : S18x12.Slices ![0, 0] S18x6
  slices_S18x12_o0_6_S18x6 : S18x12.Slices ![0, 6] S18x6
  reduces_S18x6_S6 : S18x6.Reduces [0] S6
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S32x1x128_S32x1x1_0_0_0 : S32x1x128.Slices ![0, 0, 0] S32x1x1
  shapeCasts_S32x1x1_S32 : S32x1x1.ShapeCasts S32
  reducesTo_S32_S_d0 : S32.ReducesTo [0] S_
  h_S_ : 0 < S_.numel
  bcast_S32x512_S32x512x1_0_1 : S32x512.BroadcastsInDim S32x512x1 (![0, 1] : Fin 2 → Fin S32x512x1.rank)
  bcast_S32x512x1_S32x512x6_0_1_2 : S32x512x1.BroadcastsInDim S32x512x6 (![0, 1, 2] : Fin 3 → Fin S32x512x6.rank)
  bcast_S_S32x512x6 : S_.BroadcastsInDim S32x512x6 (![] : Fin 0 → Fin S32x512x6.rank)
  shapeCasts_S32x512x6_S32x512x6x1 : S32x512x6.ShapeCasts S32x512x6x1
  bcast_S_S32x512x6x1 : S_.BroadcastsInDim S32x512x6x1 (![] : Fin 0 → Fin S32x512x6x1.rank)
  bcast_S1_S1x1x1x1_3 : S1.BroadcastsInDim S1x1x1x1 (![3] : Fin 1 → Fin S1x1x1x1.rank)
  bcast_S1x1x1x1_S32x512x6x1_0_1_2_3 : S1x1x1x1.BroadcastsInDim S32x512x6x1 (![0, 1, 2, 3] : Fin 4 → Fin S32x512x6x1.rank)
  reducesTo_S32x512x6x1_S32x512x6_d3 : S32x512x6x1.ReducesTo [3] S32x512x6
  reducesTo_S32x512x6_S32x512_d2 : S32x512x6.ReducesTo [2] S32x512
  bcast_S_S32x512 : S_.BroadcastsInDim S32x512 (![] : Fin 0 → Fin S32x512.rank)
  dot_S136x1602_S1602x12_S136x12_1_0_0_1_n_n_wf : DotDims.WF S136x1602 S1602x12 S136x12 [1] [0] [0] [1] [] []
  dot_S18x1602_S1602x12_S18x12_1_0_0_1_n_n_wf : DotDims.WF S18x1602 S1602x12 S18x12 [1] [0] [0] [1] [] []
  gather_S32x1514x6_S32x512x6x1_S32x512x6_n_1_02_02_1_3_111_wf : GatherDims.WF S32x1514x6 S32x512x6x1 S32x512x6 [] [1] [0, 2] [1] [0, 2] 3 ![1, 1, 1]
  hrank0 : 0 < grid0.rank
  k0_t1_ok : k0_t1_loop.OK
  k0_mult1_dvd : ∀ k0_t1 : Fin k0_t1_loop.trips, 136 ∣ (k0_mult1 k0_t1).toNat
  k0_off1_inb : ∀ k0_t1 : Fin k0_t1_loop.trips, ∀ a, (k0_off1 k0_t1) a + S1x136x1602.size a ≤ S1x1514x1602.size a
  k0_off2_inb : ∀ k0_t1 : Fin k0_t1_loop.trips, ∀ a, (k0_off2 k0_t1) a + S1x136x6.size a ≤ S1x1514x6.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1514x1602.size a ≤ S32x1514x1602.size a
  hwx0_0 : ∀ i : grid0.Coords, EltTy.bits .f32 = 32 ∨ (Rect.block (s := S32x1514x1602) S1x1514x1602.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1602x6.size a ≤ S32x1602x6.size a
  hwx0_1 : ∀ i : grid0.Coords, EltTy.bits .f32 = 32 ∨ (Rect.block (s := S32x1602x6) S1x1602x6.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1514x6.size a ≤ S32x1514x6.size a
  hwx0_2 : ∀ i : grid0.Coords, EltTy.bits .f32 = 32 ∨ (Rect.block (s := S32x1514x6) S1x1514x6.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S32x1x128.size a
  hwx0_3 : ∀ i : grid0.Coords, EltTy.bits .f32 = 32 ∨ (Rect.block (s := S32x1x128) S1x1x128.size (cc0_transform_3 i) (hinb0_3 i)).WholeWords (EltTy.packing .f32)

variable [Facts₀]

def dot_S136x1602_S1602x12_S136x12_1_0_0_1_n_n : DotDims S136x1602 S1602x12 S136x12 where
  lhsContracting := [1]
  rhsContracting := [0]
  lhsNonContracting := [0]
  rhsNonContracting := [1]
  lhsBatch := []
  rhsBatch := []
  wf := dot_S136x1602_S1602x12_S136x12_1_0_0_1_n_n_wf
def dot_S18x1602_S1602x12_S18x12_1_0_0_1_n_n : DotDims S18x1602 S1602x12 S18x12 where
  lhsContracting := [1]
  rhsContracting := [0]
  lhsNonContracting := [0]
  rhsNonContracting := [1]
  lhsBatch := []
  rhsBatch := []
  wf := dot_S18x1602_S1602x12_S18x12_1_0_0_1_n_n_wf
def gather_S32x1514x6_S32x512x6x1_S32x512x6_n_1_02_02_1_3_111 : GatherDims S32x1514x6 S32x512x6x1 S32x512x6 where
  offsetDims := []
  collapsedSliceDims := [1]
  operandBatchingDims := [0, 2]
  startIndicesBatchingDims := [0, 2]
  startIndexMap := [1]
  indexVectorDim := 3
  sliceSizes := ![1, 1, 1]
  wf := gather_S32x1514x6_S32x512x6x1_S32x512x6_n_1_02_02_1_3_111_wf

abbrev win0_0 : Pipeline.Window sig grid0 :=
  Pipeline.Window.ofSpec (Memref.whole main_arg4) S1x1514x1602.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x1602x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1514x6.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1514x6 : Shape := ⟨3, ![32, 1514, 6]⟩
abbrev S32x512x6 : Shape := ⟨3, ![32, 512, 6]⟩
abbrev S32x512 : Shape := ⟨2, ![32, 512]⟩
abbrev S32x1602x6 : Shape := ⟨3, ![32, 1602, 6]⟩
abbrev S32x1514x1602 : Shape := ⟨3, ![32, 1514, 1602]⟩
abbrev S_ : Shape := ⟨0, ![]⟩
abbrev S32x512x1 : Shape := ⟨3, ![32, 512, 1]⟩
abbrev S32x512x6x1 : Shape := ⟨4, ![32, 512, 6, 1]⟩
abbrev S1 : Shape := ⟨1, ![1]⟩
abbrev S1x1x1x1 : Shape := ⟨4, ![1, 1, 1, 1]⟩

abbrev nBuf : Space → Nat
  | .hbm => 82
  | .vmem => 0
  | .smem => 0
  | _ => 0

abbrev bufTy : (tb : Table) → Fin (tcTables nBuf tb) → BufTy
  | .hbm, ⟨0, _⟩ => ⟨S32x1514x6, .f32⟩
  | .hbm, ⟨1, _⟩ => ⟨S32x512x6, .f32⟩
  | .hbm, ⟨2, _⟩ => ⟨S32x512, .i32⟩
  | .hbm, ⟨3, _⟩ => ⟨S32x1602x6, .f32⟩
  | .hbm, ⟨4, _⟩ => ⟨S32x1514x1602, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x1602x6, .f32⟩
  | .hbm, ⟨9, _⟩ => ⟨S32x1602x6, .f32⟩
  | .hbm, ⟨10, _⟩ => ⟨S_, .f32⟩
  | .hbm, ⟨11, _⟩ => ⟨S32x1602x6, .f32⟩
  | .hbm, ⟨12, _⟩ => ⟨S32x1602x6, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S32x1602x6, .f32⟩
  | .hbm, ⟨17, _⟩ => ⟨S32x1602x6, .f32⟩
  | .hbm, ⟨18, _⟩ => ⟨S_, .f32⟩
  | .hbm, ⟨19, _⟩ => ⟨S32x1602x6, .f32⟩
  | .hbm, ⟨20, _⟩ => ⟨S32x1602x6, .f32⟩
  | .hbm, ⟨21, _⟩ => ⟨S32x1514x6, .f32⟩
  | .hbm, ⟨22, _⟩ => ⟨S32x1514x6, .f32⟩
  | .hbm, ⟨23, _⟩ => ⟨S_, .f32⟩
  | .hbm, ⟨24, _⟩ => ⟨S32x1514x6, .f32⟩
  | .hbm, ⟨25, _⟩ => ⟨S32x1514x6, .f32⟩
  | .hbm, ⟨26, _⟩ => ⟨S32x1514x6, .f32⟩
  | .hbm, ⟨27, _⟩ => ⟨S_, .f32⟩
  | .hbm, ⟨28, _⟩ => ⟨S_, .f32⟩
  | .hbm, ⟨29, _⟩ => ⟨S32x1514x6, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32x512x1, .i32⟩
  | .hbm, ⟨34, _⟩ => ⟨S32x512x6, .i32⟩
  | .hbm, ⟨35, _⟩ => ⟨S_, .i32⟩
  | .hbm, ⟨36, _⟩ => ⟨S32x512x6, .i32⟩
  | .hbm, ⟨37, _⟩ => ⟨S32x512x6, .i1⟩
  | .hbm, ⟨38, _⟩ => ⟨S_, .i32⟩
  | .hbm, ⟨39, _⟩ => ⟨S32x512x6, .i32⟩
  | .hbm, ⟨40, _⟩ => ⟨S32x512x6, .i32⟩
  | .hbm, ⟨41, _⟩ => ⟨S32x512x6, .i32⟩
  | .hbm, ⟨42, _⟩ => ⟨S32x512x6x1, .i32⟩
  | .hbm, ⟨43, _⟩ => ⟨S1, .i32⟩
  | .hbm, ⟨44, _⟩ => ⟨S_, .i32⟩
  | .hbm, ⟨45, _⟩ => ⟨S32x512x6x1, .i32⟩
  | .hbm, ⟨46, _⟩ => ⟨S32x512x6x1, .i1⟩
  | .hbm, ⟨47, _⟩ => ⟨S1x1x1x1, .i32⟩
  | .hbm, ⟨48, _⟩ => ⟨S32x512x6x1, .i32⟩
  | .hbm, ⟨49, _⟩ => ⟨S32x512x6x1, .i1⟩
  | .hbm, ⟨50, _⟩ => ⟨S32x512x6x1, .i1⟩
  | .hbm, ⟨51, _⟩ => ⟨S_, .i1⟩
  | .hbm, ⟨52, _⟩ => ⟨S32x512x6, .i1⟩
  | .hbm, ⟨53, _⟩ => ⟨S32x512x6, .f32⟩
  | .hbm, ⟨54, _⟩ => ⟨S_, .f32⟩
  | .hbm, ⟨55, _⟩ => ⟨S32x512x6, .f32⟩
  | .hbm, ⟨56, _⟩ => ⟨S32x512x6, .f32⟩
  | .hbm, ⟨57, _⟩ => ⟨S_, .f32⟩
  | .hbm, ⟨58, _⟩ => ⟨S32x512, .f32⟩
  | .hbm, ⟨59, _⟩ => ⟨S32x512x1, .f32⟩
  | .hbm, ⟨60, _⟩ => ⟨S32x512x6, .f32⟩
  | .hbm, ⟨61, _⟩ => ⟨S32x512x6, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S32x512x6, .f32⟩
  | .hbm, ⟨66, _⟩ => ⟨S32x512x6, .f32⟩
  | .hbm, ⟨67, _⟩ => ⟨S_, .f32⟩
  | .hbm, ⟨68, _⟩ => ⟨S32x512x6, .f32⟩
  | .hbm, ⟨69, _⟩ => ⟨S32x512x6, .f32⟩
  | .hbm, ⟨70, _⟩ => ⟨S32x512x6, .f32⟩
  | .hbm, ⟨71, _⟩ => ⟨S32x512x6, .f32⟩
  | .hbm, ⟨72, _⟩ => ⟨S_, .f32⟩
  | .hbm, ⟨73, _⟩ => ⟨S32x512, .f32⟩
  | .hbm, ⟨74, _⟩ => ⟨S32x512, .f32⟩
  | .hbm, ⟨75, _⟩ => ⟨S_, .f32⟩
  | .hbm, ⟨76, _⟩ => ⟨S32x512, .f32⟩
  | .hbm, ⟨77, _⟩ => ⟨S32x512, .f32⟩
  | .hbm, ⟨78, _⟩ => ⟨S_, .f32⟩
  | .hbm, ⟨79, _⟩ => ⟨S_, .f32⟩
  | .hbm, ⟨80, _⟩ => ⟨S32x512, .f32⟩
  | .hbm, ⟨81, _⟩ => ⟨S32x512, .f32⟩
  | _, _ => ⟨S32x1514x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v0 : Ref sig .tc := ⟨.hbm, 12, rfl⟩
abbrev main_cst_1 : Ref sig .tc := ⟨.hbm, 13, rfl⟩
abbrev main_cst_2 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst_3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_4 : Ref sig .tc := ⟨.hbm, 27, rfl⟩
abbrev main_v7 : Ref sig .tc := ⟨.hbm, 28, rfl⟩
abbrev main_v8 : Ref sig .tc := ⟨.hbm, 29, rfl⟩
abbrev main_cst_5 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_cst : Ref sig .tc := ⟨.hbm, 54, rfl⟩
abbrev main_call2_v14 : Ref sig .tc := ⟨.hbm, 55, rfl⟩
abbrev main_v13 : Ref sig .tc := ⟨.hbm, 56, rfl⟩
abbrev main_cst_6 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_cst_7 : Ref sig .tc := ⟨.hbm, 62, rfl⟩
abbrev main_cst_8 : Ref sig .tc := ⟨.hbm, 63, rfl⟩
abbrev main_call3_v0 : Ref sig .tc := ⟨.hbm, 64, rfl⟩
abbrev main_call3_v1 : Ref sig .tc := ⟨.hbm, 65, rfl⟩
abbrev main_call3_v2 : Ref sig .tc := ⟨.hbm, 66, rfl⟩
abbrev main_call3_v3 : Ref sig .tc := ⟨.hbm, 67, rfl⟩
abbrev main_call3_v4 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_cst_9 : Ref sig .tc := ⟨.hbm, 72, rfl⟩
abbrev main_v21 : Ref sig .tc := ⟨.hbm, 73, rfl⟩
abbrev main_v22 : Ref sig .tc := ⟨.hbm, 74, rfl⟩
abbrev main_cst_10 : Ref sig .tc := ⟨.hbm, 75, rfl⟩
abbrev main_v23 : Ref sig .tc := ⟨.hbm, 76, rfl⟩
abbrev main_v24 : Ref sig .tc := ⟨.hbm, 77, rfl⟩
abbrev main_cst_11 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩

abbrev nD : Nat := 1
abbrev τ : Topo := Topo.v7x

variable {F : FTy → Type} [FloatOps F]

class Facts₀ : Prop where
  bcast_S_S32x1602x6 : S_.BroadcastsInDim S32x1602x6 (![] : Fin 0 → Fin S32x1602x6.rank)
  bcast_S_S32x1514x6 : S_.BroadcastsInDim S32x1514x6 (![] : Fin 0 → Fin S32x1514x6.rank)
  reducesTo_S32x1514x6_S_d0_1_2 : S32x1514x6.ReducesTo [0, 1, 2] S_
  h_S_ : 0 < S_.numel
  bcast_S32x512_S32x512x1_0_1 : S32x512.BroadcastsInDim S32x512x1 (![0, 1] : Fin 2 → Fin S32x512x1.rank)
  bcast_S32x512x1_S32x512x6_0_1_2 : S32x512x1.BroadcastsInDim S32x512x6 (![0, 1, 2] : Fin 3 → Fin S32x512x6.rank)
  bcast_S_S32x512x6 : S_.BroadcastsInDim S32x512x6 (![] : Fin 0 → Fin S32x512x6.rank)
  shapeCasts_S32x512x6_S32x512x6x1 : S32x512x6.ShapeCasts S32x512x6x1
  bcast_S_S32x512x6x1 : S_.BroadcastsInDim S32x512x6x1 (![] : Fin 0 → Fin S32x512x6x1.rank)
  bcast_S1_S1x1x1x1_3 : S1.BroadcastsInDim S1x1x1x1 (![3] : Fin 1 → Fin S1x1x1x1.rank)
  bcast_S1x1x1x1_S32x512x6x1_0_1_2_3 : S1x1x1x1.BroadcastsInDim S32x512x6x1 (![0, 1, 2, 3] : Fin 4 → Fin S32x512x6x1.rank)
  reducesTo_S32x512x6x1_S32x512x6_d3 : S32x512x6x1.ReducesTo [3] S32x512x6
  reducesTo_S32x512x6_S32x512_d2 : S32x512x6.ReducesTo [2] S32x512
  bcast_S_S32x512 : S_.BroadcastsInDim S32x512 (![] : Fin 0 → Fin S32x512.rank)
  dot_S32x1514x1602_S32x1602x6_S32x1514x6_2_1_1_2_0_0_wf : DotDims.WF S32x1514x1602 S32x1602x6 S32x1514x6 [2] [1] [1] [2] [0] [0]
  gather_S32x1514x6_S32x512x6x1_S32x512x6_n_1_02_02_1_3_111_wf : GatherDims.WF S32x1514x6 S32x512x6x1 S32x512x6 [] [1] [0, 2] [1] [0, 2] 3 ![1, 1, 1]

variable [Facts₀]

def dot_S32x1514x1602_S32x1602x6_S32x1514x6_2_1_1_2_0_0 : DotDims S32x1514x1602 S32x1602x6 S32x1514x6 where
  lhsContracting := [2]
  rhsContracting := [1]
  lhsNonContracting := [1]
  rhsNonContracting := [2]
  lhsBatch := [0]
  rhsBatch := [0]
  wf := dot_S32x1514x1602_S32x1602x6_S32x1514x6_2_1_1_2_0_0_wf
def gather_S32x1514x6_S32x512x6x1_S32x512x6_n_1_02_02_1_3_111 : GatherDims S32x1514x6 S32x512x6x1 S32x512x6 where
  offsetDims := []
  collapsedSliceDims := [1]
  operandBatchingDims := [0, 2]
  startIndicesBatchingDims := [0, 2]
  startIndexMap := [1]
  indexVectorDim := 3
  sliceSizes := ![1, 1, 1]
  wf := gather_S32x1514x6_S32x512x6x1_S32x512x6_n_1_02_02_1_3_111_wf

class Facts : Prop extends Facts₀ where

variable [Facts]
-- ==== Proof.KernelBody.lean ====
/-
  What one grid point leaves in the output block, at any float instance.

  The body loads the batch's weights, runs eleven trips that each load 136 rows of features and predictions and add
  one chunk's sum to a [1, 1] accumulator that starts at zero, loads the last 18 rows, adds their sum, and stores the
  total broadcast over the 128 lanes of the block.  So the block is the last payload applied to the weights, the
  accumulator after the eleven trips and the last rows; the accumulator is a plain recursion over the trips.
-/
import proofs.«176934_j12687333393051_2_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.SL.Sem
open Idealize.ShloMosaic.Tactic

variable {F : FTy → Type} [FloatOps F]

theorem zero3 : (![0, 0, 0] : Fin 3 → Nat) = fun _ => 0 := funext fun a => by fin_cases a <;> rfl

/-- Rows 136 k … 136 k + 135 of a features block. -/
abbrev featChunk (x0 : Vec F S1x1514x1602 .f32) (k : Fin k0_t1_loop.trips) : Vec F S1x136x1602 .f32 :=
  View.ld x0 (Rect.unit (s := S1x1514x1602) (k0_off1 k) S1x136x1602.size (k0_off1_inb k))

/-- The same rows of a predictions block. -/
abbrev predChunk (x2 : Vec F S1x1514x6 .f32) (k : Fin k0_t1_loop.trips) : Vec F S1x136x6 .f32 :=
  View.ld x2 (Rect.unit (s := S1x1514x6) (k0_off2 k) S1x136x6.size (k0_off2_inb k))

/-- The last 18 rows of a features block. -/
abbrev featTail (x0 : Vec F S1x1514x1602 .f32) : Vec F S1x18x1602 .f32 :=
  View.ld x0 (Rect.unit (s := S1x1514x1602) ![0, 1496, 0] S1x18x1602.size inb_S1x1514x1602_S1x18x1602_0_1496_0)

/-- The last 18 rows of a predictions block. -/
abbrev predTail (x2 : Vec F S1x1514x6 .f32) : Vec F S1x18x6 .f32 :=
  View.ld x2 (Rect.unit (s := S1x1514x6) ![0, 1496, 0] S1x18x6.size inb_S1x1514x6_S1x18x6_0_1496_0)

/-- The accumulator before trip n: the zero block, then one chunk's payload per trip. -/
def accF (x1 : Vec F S1x1602x6 .f32) (x0 : Vec F S1x1514x1602 .f32) (x2 : Vec F S1x1514x6 .f32) : ℕ → FVec F S1x1 .f32
  | 0 => k0_pay2
  | n + 1 => if h : n < k0_t1_loop.trips then k0_pay3 x1 (accF x1 x0 x2 n) (featChunk x0 ⟨n, h⟩) (predChunk x2 ⟨n, h⟩) else accF x1 x0 x2 n

/-- One trip adds the chunk's payload of the rows it loads. -/
theorem trip_val (𝒱 : Variants) (c : Dev nD) (bd : Option 𝒱.V) (i : grid0.Coords) (arg1 : Memref sig .tc .vmem S1x1514x1602 .f32) (harg1 : arg1.IsWhole) (arg2 : Memref sig .tc .vmem S1x1602x6 .f32) (harg2 : arg2.IsWhole) (arg3 : Memref sig .tc .vmem S1x1514x6 .f32) (harg3 : arg3.IsWhole) (arg4 : Memref sig .tc .vmem S1x1x128 .f32) (harg4 : arg4.IsWhole)
    (v0 : Vec F S1x1602x6 .f32) (x0 : Vec F S1x1514x1602 .f32) (x2 : Vec F S1x1514x6 .f32) (k : Fin k0_t1_loop.trips) (acc : FVec F S1x1 .f32) :
    tripR_k0_t1 (F := F) 𝒱 c bd i arg1 harg1 arg2 harg2 arg3 harg3 arg4 harg4 v0 (harg1.unread x0) (harg3.unread x2) k acc
      = k0_pay3 v0 acc (featChunk x0 k) (predChunk x2 k) := by
  unfold tripR_k0_t1
  unfold trip_k0_t1
  dsimp only
  rw [View.readAt_eq_ld, View.readAt_eq_ld, harg1.read_unread, harg3.read_unread]

/-- The carried value before trip n is the recursion above. -/
theorem st_val (𝒱 : Variants) (c : Dev nD) (bd : Option 𝒱.V) (i : grid0.Coords) (arg1 : Memref sig .tc .vmem S1x1514x1602 .f32) (harg1 : arg1.IsWhole) (arg2 : Memref sig .tc .vmem S1x1602x6 .f32) (harg2 : arg2.IsWhole) (arg3 : Memref sig .tc .vmem S1x1514x6 .f32) (harg3 : arg3.IsWhole) (arg4 : Memref sig .tc .vmem S1x1x128 .f32) (harg4 : arg4.IsWhole)
    (v0 : Vec F S1x1602x6 .f32) (x0 : Vec F S1x1514x1602 .f32) (x2 : Vec F S1x1514x6 .f32) :
    ∀ n : ℕ, st_k0_t1 (F := F) 𝒱 c bd i arg1 harg1 arg2 harg2 arg3 harg3 arg4 harg4 v0 (harg1.unread x0) (harg3.unread x2) k0_pay2 n = accF v0 x0 x2 n
  | 0 => rfl
  | n + 1 => by
    rw [st_k0_t1.eq_2]
    unfold st_k0_t1Step
    rw [st_val 𝒱 c bd i arg1 harg1 arg2 harg2 arg3 harg3 arg4 harg4 v0 x0 x2 n]
    by_cases h : n < k0_t1_loop.trips
    · rw [dif_pos h, trip_val, accF, dif_pos h]
    · rw [dif_neg h, accF, dif_neg h]

/-- The output block after the body: the last payload of the weights, the accumulator after every trip, and the last rows. -/
theorem out_val (c : Dev nD) (i : grid0.Coords) (arg1 : Memref sig .tc .vmem S1x1514x1602 .f32) (harg1 : arg1.IsWhole) (arg2 : Memref sig .tc .vmem S1x1602x6 .f32) (harg2 : arg2.IsWhole) (arg3 : Memref sig .tc .vmem S1x1514x6 .f32) (harg3 : arg3.IsWhole) (arg4 : Memref sig .tc .vmem S1x1x128 .f32) (harg4 : arg4.IsWhole)
    (x0 : Vec F S1x1514x1602 .f32) (x1 : Vec F S1x1602x6 .f32) (x2 : Vec F S1x1514x6 .f32) :
    out0_A_3 c i arg1 harg1 arg2 harg2 arg3 harg3 arg4 harg4 x0 x1 x2
      = k0_pay4 x1 (accF x1 x0 x2 k0_t1_loop.trips) (featTail x0) (predTail x2) := by
  unfold out0_A_3
  rw [View.read_writes_eq_canon _ _ _ (cover0_A_3 c i arg1 harg1 arg2 harg2 arg3 harg3 arg4 harg4 x0 x1 x2)]
  unfold kernelRun0_A
  dsimp only
  sl_unfold_words
  rw [View.canon_unit_zero zero3]
  simp only [View.readAt_eq_ld, harg1.read_unread, harg2.read_unread, harg3.read_unread, View.ld_unit_zero (S := S1x1602x6) zero3]
  rw [st_val]

end Cert.KernelIdeal.Body

end
-- ==== Proof.LossSpec.lean ====
/-
  The second loss term as one function of the three arrays it depends on.

  Write yp for the predictions [32, 1514, 6], w for the weights [32, 1602, 6] and ft for the features
  [32, 1514, 1602].  The weight is split in a part clipped to [0, 1] and a part clipped to [-1, 0]; a row of features
  is contracted with each part over the 1602 feature columns; and one entry (b, i, c) contributes
      (1 - yp b i c) * (ft b i · wPos b · c) - yp b i c * (ft b i · wNeg b · c).
  The streaming evaluation adds these entries batch by batch: for each batch, eleven chunks of 136 rows one after the
  other into an accumulator that starts at zero, then the last 18 rows; then the 32 batches.  The direct evaluation sums
  the two products separately over all entries and subtracts.  Both are stated here on the extended reals, with the three
  constants kept as the words the programs spell.
-/
import Idealize.ShloMosaic.PureOps.Ideal
import Idealize.ShloMosaic.Lib.ValueIdx

noncomputable section

namespace Cert.Loss2

open Idealize.ShloMosaic Idealize.ShloMosaic.ValueIdx

/-- The words for 0.0, 1.0 and -1.0. -/
abbrev zeroW : EReal := Ideal.ofBits .f32 0x00000000#32
abbrev oneW : EReal := Ideal.ofBits .f32 0x3F800000#32
abbrev negOneW : EReal := Ideal.ofBits .f32 0xBF800000#32

abbrev YIdx := (⟨3, ![32, 1514, 6]⟩ : Shape).Idx
abbrev WIdx := (⟨3, ![32, 1602, 6]⟩ : Shape).Idx
abbrev FIdx := (⟨3, ![32, 1514, 1602]⟩ : Shape).Idx

variable (yp : YIdx → EReal) (w : WIdx → EReal) (ft : FIdx → EReal)

/-- The weight clipped to [0, 1]. -/
def wPos (b : Fin 32) (j : Fin 1602) (c : Fin 6) : EReal := min oneW (max zeroW (w (ix3 b j c)))

/-- The weight clipped to [-1, 0]. -/
def wNeg (b : Fin 32) (j : Fin 1602) (c : Fin 6) : EReal := min zeroW (max negOneW (w (ix3 b j c)))

/-- Row i of batch b contracted with the positive part, class c. -/
def fPos (b : Fin 32) (i : Fin 1514) (c : Fin 6) : EReal := ∑ j : Fin 1602, ft (ix3 b i j) * wPos w b j c

/-- Row i of batch b contracted with the negative part, class c. -/
def fNeg (b : Fin 32) (i : Fin 1514) (c : Fin 6) : EReal := ∑ j : Fin 1602, ft (ix3 b i j) * wNeg w b j c

/-- What entry (b, i, c) contributes. -/
def entry (b : Fin 32) (i : Fin 1514) (c : Fin 6) : EReal :=
  (oneW - yp (ix3 b i c)) * fPos w ft b i c - yp (ix3 b i c) * fNeg w ft b i c

/-- Row r of chunk k is row 136 k + r. -/
def chunkRow (k : Fin 11) (r : Fin 136) : Fin 1514 := ⟨136 * k.val + r.val, by have := k.isLt; have := r.isLt; omega⟩

/-- Row r of the last 18 rows is row 1496 + r. -/
def tailRow (r : Fin 18) : Fin 1514 := ⟨1496 + r.val, by have := r.isLt; omega⟩

/-- One chunk's sum: over the classes, of the sum over the chunk's rows. -/
def chunkSum (b : Fin 32) (k : Fin 11) : EReal := ∑ c : Fin 6, ∑ r : Fin 136, entry yp w ft b (chunkRow k r) c

/-- The last rows' sum. -/
def tailSum (b : Fin 32) : EReal := ∑ c : Fin 6, ∑ r : Fin 18, entry yp w ft b (tailRow r) c

/-- The accumulator before chunk n: zero, then one chunk's sum added per step (unchanged past the last chunk). -/
def accBefore (b : Fin 32) : ℕ → EReal
  | 0 => zeroW
  | n + 1 => if h : n < 11 then accBefore b n + chunkSum yp w ft b ⟨n, h⟩ else accBefore b n

/-- One batch's total as the streaming evaluation forms it. -/
def batchTotal (b : Fin 32) : EReal := accBefore yp w ft b 11 + tailSum yp w ft b

/-- The streaming evaluation: the batches' totals added to zero. -/
def streamed : EReal := zeroW + ∑ b : Fin 32, batchTotal yp w ft b

/-- The direct evaluation: the two products summed separately over all entries, then subtracted. -/
def direct : EReal :=
  (zeroW + ∑ b : Fin 32, ∑ i : Fin 1514, ∑ c : Fin 6, (oneW - yp (ix3 b i c)) * fPos w ft b i c)
    - (zeroW + ∑ b : Fin 32, ∑ i : Fin 1514, ∑ c : Fin 6, yp (ix3 b i c) * fNeg w ft b i c)

end Cert.Loss2

end
-- ==== Proof.KernelPay.lean ====
/-
  The body's arithmetic at the exact instance, read at an index.

  The fused weight tile [1602, 12] holds in its first six columns the weights clipped to [0, 1] and in its last six the
  weights clipped to [-1, 0].  A block of R feature rows times that tile gives, in columns c and c + 6, the row's
  contraction with the two parts for class c.
-/
import proofs.«176934_j12687333393051_2_alg».proof.Proof.Gen.KernelIdeal.Skeleton
import proofs.«176934_j12687333393051_2_alg».proof.Proof.LossSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pay

open Cert.KernelIdeal Cert.KernelIdeal.Gen Idealize.ShloMosaic Idealize.ShloMosaic.ValueIdx
open Cert.Loss2 (zeroW oneW negOneW)

/-- The weight tile's column c < 6 at row j: the weight clipped to [0, 1]. -/
theorem tile_left (x1 : Vec Ideal S1x1602x6 .f32) (j : Fin 1602) (c : Fin 6) :
    k0_pay1 (F := Ideal) x1 (ix2 j (⟨c.val, by have := c.isLt; omega⟩ : Fin 12))
      = min oneW (max zeroW (x1 (ix3 (0 : Fin 1) j c))) := by
  unfold k0_pay1
  rw [truncf_apply, concatenate_pair_apply_left (s₁ := S1602x6) (s₂ := S1602x6) (1 : Fin 2) _ _ _ (ix2 j (⟨c.val, by have := c.isLt; omega⟩ : Fin 12)) rfl (ix2 j c)
    (fun b => match b with | ⟨0, _⟩ => rfl | ⟨1, _⟩ => rfl)]
  show min _ (max _ (shapeCast S1602x6 x1 _ (ix2 j c))) = _
  rw [shapeCast_1ab_ab_apply]
  rfl

/-- The weight tile's column c + 6 at row j: the weight clipped to [-1, 0]. -/
theorem tile_right (x1 : Vec Ideal S1x1602x6 .f32) (j : Fin 1602) (c : Fin 6) :
    k0_pay1 (F := Ideal) x1 (ix2 j (⟨c.val + 6, by have := c.isLt; omega⟩ : Fin 12))
      = min zeroW (max negOneW (x1 (ix3 (0 : Fin 1) j c))) := by
  unfold k0_pay1
  rw [truncf_apply, concatenate_pair_apply_right (s₁ := S1602x6) (s₂ := S1602x6) (1 : Fin 2) _ _ _ (ix2 j (⟨c.val + 6, by have := c.isLt; omega⟩ : Fin 12)) rfl rfl (ix2 j c)
    (fun b hb => match b with | ⟨0, _⟩ => rfl | ⟨1, _⟩ => absurd rfl hb) rfl]
  show min _ (max _ (shapeCast S1602x6 x1 _ (ix2 j c))) = _
  rw [shapeCast_1ab_ab_apply]
  rfl

/-- A 136-row block of features times the fused weight tile, into a zero accumulator: entry (r, c) is the sum over the 1602
    feature columns of the products. -/
theorem matmul136_apply (lhs : FVec Ideal S136x1602 .bf16) (rhs : FVec Ideal S1602x12 .bf16) (r : Fin 136) (c : Fin 12) :
    matmul dot_S136x1602_S1602x12_S136x12_1_0_0_1_n_n none lhs rhs (constant S136x12 .f32 0x00000000#32) (ix2 r c)
      = ∑ q : Fin 1602, lhs (ix2 r q) * rhs (ix2 q c) := by
  simp only [matmul]
  rw [Ideal.matmul_constant_zero_apply, ← Equiv.sum_comp (contrEquiv1 dot_S136x1602_S1602x12_S136x12_1_0_0_1_n_n 1602 rfl rfl).symm]
  refine Finset.sum_congr rfl fun q _ => ?_
  have hq := contrEquiv1_symm_val dot_S136x1602_S1602x12_S136x12_1_0_0_1_n_n 1602 rfl rfl q
  have l0 : (dot_S136x1602_S1602x12_S136x12_1_0_0_1_n_n.lhsIdx (ix2 r c) ((contrEquiv1 dot_S136x1602_S1602x12_S136x12_1_0_0_1_n_n 1602 rfl rfl).symm q) 0).val = r.val := by
    unfold DotDims.lhsIdx
    rw [dif_neg (show ¬(0 : Fin S136x1602.rank) ∈ dot_S136x1602_S1602x12_S136x12_1_0_0_1_n_n.lhsBatch by decide), dif_pos (show (0 : Fin S136x1602.rank) ∈ dot_S136x1602_S1602x12_S136x12_1_0_0_1_n_n.lhsNonContracting by decide)]
    rfl
  have l1 : (dot_S136x1602_S1602x12_S136x12_1_0_0_1_n_n.lhsIdx (ix2 r c) ((contrEquiv1 dot_S136x1602_S1602x12_S136x12_1_0_0_1_n_n 1602 rfl rfl).symm q) 1).val = q.val :=
    (dot_S136x1602_S1602x12_S136x12_1_0_0_1_n_n.lhsIdx_val_of_single rfl _ _).trans hq
  have r0 : (dot_S136x1602_S1602x12_S136x12_1_0_0_1_n_n.rhsIdx (ix2 r c) ((contrEquiv1 dot_S136x1602_S1602x12_S136x12_1_0_0_1_n_n 1602 rfl rfl).symm q) 0).val = q.val :=
    (dot_S136x1602_S1602x12_S136x12_1_0_0_1_n_n.rhsIdx_val_of_single rfl _ _).trans hq
  have r1 : (dot_S136x1602_S1602x12_S136x12_1_0_0_1_n_n.rhsIdx (ix2 r c) ((contrEquiv1 dot_S136x1602_S1602x12_S136x12_1_0_0_1_n_n 1602 rfl rfl).symm q) 1).val = c.val := by
    unfold DotDims.rhsIdx
    rw [dif_neg (show ¬(1 : Fin S1602x12.rank) ∈ dot_S136x1602_S1602x12_S136x12_1_0_0_1_n_n.rhsBatch by decide), dif_pos (show (1 : Fin S1602x12.rank) ∈ dot_S136x1602_S1602x12_S136x12_1_0_0_1_n_n.rhsNonContracting by decide)]
    rfl
  have el : dot_S136x1602_S1602x12_S136x12_1_0_0_1_n_n.lhsIdx (ix2 r c) ((contrEquiv1 dot_S136x1602_S1602x12_S136x12_1_0_0_1_n_n 1602 rfl rfl).symm q) = ix2 r q := funext fun a => Fin.ext (by
    match a with
    | ⟨0, _⟩ => exact l0
    | ⟨1, _⟩ => exact l1)
  have er : dot_S136x1602_S1602x12_S136x12_1_0_0_1_n_n.rhsIdx (ix2 r c) ((contrEquiv1 dot_S136x1602_S1602x12_S136x12_1_0_0_1_n_n 1602 rfl rfl).symm q) = ix2 q c := funext fun a => Fin.ext (by
    match a with
    | ⟨0, _⟩ => exact r0
    | ⟨1, _⟩ => exact r1)
  rw [el, er]

/-- A 18-row block of features times the fused weight tile, into a zero accumulator: entry (r, c) is the sum over the 1602
    feature columns of the products. -/
theorem matmul18_apply (lhs : FVec Ideal S18x1602 .bf16) (rhs : FVec Ideal S1602x12 .bf16) (r : Fin 18) (c : Fin 12) :
    matmul dot_S18x1602_S1602x12_S18x12_1_0_0_1_n_n none lhs rhs (constant S18x12 .f32 0x00000000#32) (ix2 r c)
      = ∑ q : Fin 1602, lhs (ix2 r q) * rhs (ix2 q c) := by
  simp only [matmul]
  rw [Ideal.matmul_constant_zero_apply, ← Equiv.sum_comp (contrEquiv1 dot_S18x1602_S1602x12_S18x12_1_0_0_1_n_n 1602 rfl rfl).symm]
  refine Finset.sum_congr rfl fun q _ => ?_
  have hq := contrEquiv1_symm_val dot_S18x1602_S1602x12_S18x12_1_0_0_1_n_n 1602 rfl rfl q
  have l0 : (dot_S18x1602_S1602x12_S18x12_1_0_0_1_n_n.lhsIdx (ix2 r c) ((contrEquiv1 dot_S18x1602_S1602x12_S18x12_1_0_0_1_n_n 1602 rfl rfl).symm q) 0).val = r.val := by
    unfold DotDims.lhsIdx
    rw [dif_neg (show ¬(0 : Fin S18x1602.rank) ∈ dot_S18x1602_S1602x12_S18x12_1_0_0_1_n_n.lhsBatch by decide), dif_pos (show (0 : Fin S18x1602.rank) ∈ dot_S18x1602_S1602x12_S18x12_1_0_0_1_n_n.lhsNonContracting by decide)]
    rfl
  have l1 : (dot_S18x1602_S1602x12_S18x12_1_0_0_1_n_n.lhsIdx (ix2 r c) ((contrEquiv1 dot_S18x1602_S1602x12_S18x12_1_0_0_1_n_n 1602 rfl rfl).symm q) 1).val = q.val :=
    (dot_S18x1602_S1602x12_S18x12_1_0_0_1_n_n.lhsIdx_val_of_single rfl _ _).trans hq
  have r0 : (dot_S18x1602_S1602x12_S18x12_1_0_0_1_n_n.rhsIdx (ix2 r c) ((contrEquiv1 dot_S18x1602_S1602x12_S18x12_1_0_0_1_n_n 1602 rfl rfl).symm q) 0).val = q.val :=
    (dot_S18x1602_S1602x12_S18x12_1_0_0_1_n_n.rhsIdx_val_of_single rfl _ _).trans hq
  have r1 : (dot_S18x1602_S1602x12_S18x12_1_0_0_1_n_n.rhsIdx (ix2 r c) ((contrEquiv1 dot_S18x1602_S1602x12_S18x12_1_0_0_1_n_n 1602 rfl rfl).symm q) 1).val = c.val := by
    unfold DotDims.rhsIdx
    rw [dif_neg (show ¬(1 : Fin S1602x12.rank) ∈ dot_S18x1602_S1602x12_S18x12_1_0_0_1_n_n.rhsBatch by decide), dif_pos (show (1 : Fin S1602x12.rank) ∈ dot_S18x1602_S1602x12_S18x12_1_0_0_1_n_n.rhsNonContracting by decide)]
    rfl
  have el : dot_S18x1602_S1602x12_S18x12_1_0_0_1_n_n.lhsIdx (ix2 r c) ((contrEquiv1 dot_S18x1602_S1602x12_S18x12_1_0_0_1_n_n 1602 rfl rfl).symm q) = ix2 r q := funext fun a => Fin.ext (by
    match a with
    | ⟨0, _⟩ => exact l0
    | ⟨1, _⟩ => exact l1)
  have er : dot_S18x1602_S1602x12_S18x12_1_0_0_1_n_n.rhsIdx (ix2 r c) ((contrEquiv1 dot_S18x1602_S1602x12_S18x12_1_0_0_1_n_n 1602 rfl rfl).symm q) = ix2 q c := funext fun a => Fin.ext (by
    match a with
    | ⟨0, _⟩ => exact r0
    | ⟨1, _⟩ => exact r1)
  rw [el, er]

/-- A [136, 6] block summed over its rows, then over the six classes, read at the one entry of the [1, 1] result. -/
theorem sumAll136 (v : FVec Ideal S136x6 .f32) (p q : Fin 1) :
    shapeCast S1x1 (multiReduction .add [1] S1 (shapeCast S1x6 (multiReduction .add [0] S6 v 0x00000000#32 reduces_S136x6_S6 (.inl rfl) rfl)
        shapeCasts_S6_S1x6) 0x00000000#32 reduces_S1x6_S1 (.inl rfl) rfl) shapeCasts_S1_S1x1 (ix2 p q)
      = ∑ c : Fin 6, ∑ r : Fin 136, v (ix2 r c) := by
  rw [shapeCast_a_1a_apply]
  refine (Ideal.multiReduction_add_single _ _ reduces_S1x6_S1 _ _ (ix1 q)).trans ?_
  refine Finset.sum_congr rfl fun (c : Fin 6) _ => ?_
  have e1 : reduces_S1x6_S1.lift (ix1 q) c = ix2 (0 : Fin 1) c := funext fun a => Fin.ext (by
    match a with
    | ⟨0, _⟩ => exact Nat.lt_one_iff.mp (reduces_S1x6_S1.lift (ix1 q) c 0).isLt
    | ⟨1, _⟩ => rfl)
  rw [e1]
  refine (shapeCast_a_1a_apply (a := 6) _ shapeCasts_S6_S1x6 (0 : Fin 1) c).trans ?_
  refine (Ideal.multiReduction_add_single _ _ reduces_S136x6_S6 _ _ (ix1 c)).trans ?_
  refine Finset.sum_congr rfl fun (r : Fin 136) _ => ?_
  have e2 : reduces_S136x6_S6.lift (ix1 c) r = ix2 r c := funext fun a => Fin.ext (by
    match a with
    | ⟨0, _⟩ => rfl
    | ⟨1, _⟩ => rfl)
  rw [e2]

/-- A [18, 6] block summed over its rows, then over the six classes, read at the one entry of the [1, 1] result. -/
theorem sumAll18 (v : FVec Ideal S18x6 .f32) (p q : Fin 1) :
    shapeCast S1x1 (multiReduction .add [1] S1 (shapeCast S1x6 (multiReduction .add [0] S6 v 0x00000000#32 reduces_S18x6_S6 (.inl rfl) rfl)
        shapeCasts_S6_S1x6) 0x00000000#32 reduces_S1x6_S1 (.inl rfl) rfl) shapeCasts_S1_S1x1 (ix2 p q)
      = ∑ c : Fin 6, ∑ r : Fin 18, v (ix2 r c) := by
  rw [shapeCast_a_1a_apply]
  refine (Ideal.multiReduction_add_single _ _ reduces_S1x6_S1 _ _ (ix1 q)).trans ?_
  refine Finset.sum_congr rfl fun (c : Fin 6) _ => ?_
  have e1 : reduces_S1x6_S1.lift (ix1 q) c = ix2 (0 : Fin 1) c := funext fun a => Fin.ext (by
    match a with
    | ⟨0, _⟩ => exact Nat.lt_one_iff.mp (reduces_S1x6_S1.lift (ix1 q) c 0).isLt
    | ⟨1, _⟩ => rfl)
  rw [e1]
  refine (shapeCast_a_1a_apply (a := 6) _ shapeCasts_S6_S1x6 (0 : Fin 1) c).trans ?_
  refine (Ideal.multiReduction_add_single _ _ reduces_S18x6_S6 _ _ (ix1 c)).trans ?_
  refine Finset.sum_congr rfl fun (r : Fin 18) _ => ?_
  have e2 : reduces_S18x6_S6.lift (ix1 c) r = ix2 r c := funext fun a => Fin.ext (by
    match a with
    | ⟨0, _⟩ => rfl
    | ⟨1, _⟩ => rfl)
  rw [e2]

/-- What row r, class c of a block of rows contributes: (1 - prediction) times the row's contraction with the weights
    clipped to [0, 1], minus the prediction times its contraction with the weights clipped to [-1, 0]. -/
def blockEntry (x1 : Vec Ideal S1x1602x6 .f32) {R : Nat} (ft : Fin R → Fin 1602 → EReal) (yp : Fin R → Fin 6 → EReal) (r : Fin R) (c : Fin 6) : EReal :=
  (oneW - yp r c) * (∑ q : Fin 1602, ft r q * min oneW (max zeroW (x1 (ix3 (0 : Fin 1) q c))))
    - yp r c * (∑ q : Fin 1602, ft r q * min zeroW (max negOneW (x1 (ix3 (0 : Fin 1) q c))))

/-- One trip's payload: the accumulator plus the chunk's sum, classes outermost. -/
theorem k0_pay3_apply (x1 : Vec Ideal S1x1602x6 .f32) (acc : FVec Ideal S1x1 .f32) (ft : Vec Ideal S1x136x1602 .f32) (yp : Vec Ideal S1x136x6 .f32)
    (p q : Fin 1) :
    k0_pay3 (F := Ideal) x1 acc ft yp (ix2 p q)
      = acc (ix2 (0 : Fin 1) (0 : Fin 1)) + ∑ c : Fin 6, ∑ r : Fin 136,
          blockEntry x1 (fun r q => ft (ix3 (0 : Fin 1) r q)) (fun r c => yp (ix3 (0 : Fin 1) r c)) r c := by
  unfold k0_pay3
  have hp : p = 0 := Subsingleton.elim _ _
  have hq : q = 0 := Subsingleton.elim _ _
  subst hp; subst hq
  show acc (ix2 (0 : Fin 1) (0 : Fin 1)) + _ = _
  refine congrArg (acc (ix2 (0 : Fin 1) (0 : Fin 1)) + ·) ?_
  refine (sumAll136 _ (0 : Fin 1) (0 : Fin 1)).trans ?_
  refine Finset.sum_congr rfl fun c _ => Finset.sum_congr rfl fun r _ => ?_
  rw [subf_apply, mulf_apply, mulf_apply, subf_apply, broadcast_apply, shapeCast_1ab_ab_apply,
    extractStridedSlice_apply ![0, 0] _ slices_S136x12_o0_0_S136x6 (ix2 r c) (ix2 r (⟨c.val, by have := c.isLt; omega⟩ : Fin 12)) (fun a => match a with
      | ⟨0, _⟩ => by show r.val = 0 + r.val; omega
      | ⟨1, _⟩ => by show c.val = 0 + c.val; omega),
    extractStridedSlice_apply ![0, 6] _ slices_S136x12_o0_6_S136x6 (ix2 r c) (ix2 r (⟨c.val + 6, by have := c.isLt; omega⟩ : Fin 12)) (fun a => match a with
      | ⟨0, _⟩ => by show r.val = 0 + r.val; omega
      | ⟨1, _⟩ => by show c.val + 6 = 6 + c.val; omega),
    matmul136_apply, matmul136_apply]
  unfold blockEntry
  refine congrArg₂ (· - ·) (congrArg _ (Finset.sum_congr rfl fun q _ => ?_)) (congrArg _ (Finset.sum_congr rfl fun q _ => ?_))
  · rw [tile_left]
    show shapeCast S136x1602 ft shapeCasts_S1x136x1602_S136x1602 (ix2 r q) * _ = _
    rw [shapeCast_1ab_ab_apply]
  · rw [tile_right]
    show shapeCast S136x1602 ft shapeCasts_S1x136x1602_S136x1602 (ix2 r q) * _ = _
    rw [shapeCast_1ab_ab_apply]

/-- The last payload: the accumulator plus the last 18 rows' sum, the same at every lane of the block. -/
theorem k0_pay4_apply (x1 : Vec Ideal S1x1602x6 .f32) (acc : FVec Ideal S1x1 .f32) (ft : Vec Ideal S1x18x1602 .f32) (yp : Vec Ideal S1x18x6 .f32)
    (u v : Fin 1) (l : Fin 128) :
    k0_pay4 (F := Ideal) x1 acc ft yp (ix3 u v l)
      = acc (ix2 (0 : Fin 1) (0 : Fin 1)) + ∑ c : Fin 6, ∑ r : Fin 18,
          blockEntry x1 (fun r q => ft (ix3 (0 : Fin 1) r q)) (fun r c => yp (ix3 (0 : Fin 1) r c)) r c := by
  unfold k0_pay4
  refine (broadcastTo_apply _ broadcasts_S1x1x1_S1x1x128 (ix3 u v l) (ix3 (0 : Fin 1) (0 : Fin 1) (0 : Fin 1)) (fun a => match a with
    | ⟨0, _⟩ => rfl
    | ⟨1, _⟩ => rfl
    | ⟨2, _⟩ => rfl)).trans ?_
  refine (shapeCast_ab_1ab_apply _ shapeCasts_S1x1_S1x1x1 (0 : Fin 1) (0 : Fin 1) (0 : Fin 1)).trans ?_
  show acc (ix2 (0 : Fin 1) (0 : Fin 1)) + _ = _
  refine congrArg (acc (ix2 (0 : Fin 1) (0 : Fin 1)) + ·) ?_
  refine (sumAll18 _ (0 : Fin 1) (0 : Fin 1)).trans ?_
  refine Finset.sum_congr rfl fun c _ => Finset.sum_congr rfl fun r _ => ?_
  rw [subf_apply, mulf_apply, mulf_apply, subf_apply, broadcast_apply, shapeCast_1ab_ab_apply,
    extractStridedSlice_apply ![0, 0] _ slices_S18x12_o0_0_S18x6 (ix2 r c) (ix2 r (⟨c.val, by have := c.isLt; omega⟩ : Fin 12)) (fun a => match a with
      | ⟨0, _⟩ => by show r.val = 0 + r.val; omega
      | ⟨1, _⟩ => by show c.val = 0 + c.val; omega),
    extractStridedSlice_apply ![0, 6] _ slices_S18x12_o0_6_S18x6 (ix2 r c) (ix2 r (⟨c.val + 6, by have := c.isLt; omega⟩ : Fin 12)) (fun a => match a with
      | ⟨0, _⟩ => by show r.val = 0 + r.val; omega
      | ⟨1, _⟩ => by show c.val + 6 = 6 + c.val; omega),
    matmul18_apply, matmul18_apply]
  unfold blockEntry
  refine congrArg₂ (· - ·) (congrArg _ (Finset.sum_congr rfl fun q _ => ?_)) (congrArg _ (Finset.sum_congr rfl fun q _ => ?_))
  · rw [tile_left]
    show shapeCast S18x1602 ft shapeCasts_S1x18x1602_S18x1602 (ix2 r q) * _ = _
    rw [shapeCast_1ab_ab_apply]
  · rw [tile_right]
    show shapeCast S18x1602 ft shapeCasts_S1x18x1602_S18x1602 (ix2 r q) * _ = _
    rw [shapeCast_1ab_ab_apply]

end Cert.KernelIdeal.Pay

end
-- ==== Proof.KernelValue.lean ====
/-
  The kernel's output array at the exact instance.

  Grid point t works on batch t: its three input blocks are batch t's features, weights and predictions.  The chunk
  and tail loads read rows 136 k + r and 1496 + r of those blocks, so the accumulator before chunk n is the
  specification's, and the block the point writes holds the batch's total at every lane.  The 32 blocks tile the
  [32, 1, 128] array, so the array ends holding, at (b, 0, l), batch b's total.
-/
import proofs.«176934_j12687333393051_2_alg».proof.Proof.KernelBody
import proofs.«176934_j12687333393051_2_alg».proof.Proof.KernelPay
import proofs.«176934_j12687333393051_2_alg».proof.Proof.LossSpec
import Idealize.ShloMosaic.Lib.Pipeline.Value
import Idealize.ShloMosaic.Lib.ValueIdx

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat)
open Cert.Loss2

/-- The loop runs eleven trips. -/
theorem trips_eq : k0_t1_loop.trips = 11 := by decide

/-- A trip as one of the specification's eleven chunks. -/
def chunkOf (k : Fin k0_t1_loop.trips) : Fin 11 := ⟨k.val, Nat.lt_of_lt_of_le k.isLt k0_t1_abs.2.1⟩

section Loads

variable (x0 : Vec Ideal S1x1514x1602 .f32) (x2 : Vec Ideal S1x1514x6 .f32)

/-- Row r of chunk k of a features block is its row 136 k + r. -/
theorem featChunk_at (k : Fin k0_t1_loop.trips) (r : Fin 136) (q : Fin 1602) :
    Body.featChunk x0 k (ix3 (0 : Fin 1) r q) = x0 (ix3 (0 : Fin 1) (chunkRow (chunkOf k) r) q) := by
  show x0 _ = x0 _
  congr 1
  funext a
  apply Fin.ext
  match a with
  | ⟨0, _⟩ => show (k0_off1 k) 0 + 1 * 0 = 0; rw [k0_off1_eq]; rfl
  | ⟨1, _⟩ => show (k0_off1 k) 1 + 1 * r.val = 136 * k.val + r.val; rw [k0_off1_eq]; show 136 * k.val + 1 * r.val = _; omega
  | ⟨2, _⟩ => show (k0_off1 k) 2 + 1 * q.val = q.val; rw [k0_off1_eq]; show 0 + 1 * q.val = _; omega

/-- The same for a predictions block. -/
theorem predChunk_at (k : Fin k0_t1_loop.trips) (r : Fin 136) (cl : Fin 6) :
    Body.predChunk x2 k (ix3 (0 : Fin 1) r cl) = x2 (ix3 (0 : Fin 1) (chunkRow (chunkOf k) r) cl) := by
  show x2 _ = x2 _
  congr 1
  funext a
  apply Fin.ext
  match a with
  | ⟨0, _⟩ => show (k0_off2 k) 0 + 1 * 0 = 0; rw [k0_off2_eq]; rfl
  | ⟨1, _⟩ => show (k0_off2 k) 1 + 1 * r.val = 136 * k.val + r.val; rw [k0_off2_eq]; show 136 * k.val + 1 * r.val = _; omega
  | ⟨2, _⟩ => show (k0_off2 k) 2 + 1 * cl.val = cl.val; rw [k0_off2_eq]; show 0 + 1 * cl.val = _; omega

/-- Row r of the last rows of a features block is its row 1496 + r. -/
theorem featTail_at (r : Fin 18) (q : Fin 1602) :
    Body.featTail x0 (ix3 (0 : Fin 1) r q) = x0 (ix3 (0 : Fin 1) (tailRow r) q) := by
  show x0 _ = x0 _
  congr 1
  funext a
  apply Fin.ext
  match a with
  | ⟨0, _⟩ => rfl
  | ⟨1, _⟩ => show 1496 + 1 * r.val = 1496 + r.val; omega
  | ⟨2, _⟩ => show 0 + 1 * q.val = q.val; omega

/-- The same for a predictions block. -/
theorem predTail_at (r : Fin 18) (cl : Fin 6) :
    Body.predTail x2 (ix3 (0 : Fin 1) r cl) = x2 (ix3 (0 : Fin 1) (tailRow r) cl) := by
  show x2 _ = x2 _
  congr 1
  funext a
  apply Fin.ext
  match a with
  | ⟨0, _⟩ => rfl
  | ⟨1, _⟩ => show 1496 + 1 * r.val = 1496 + r.val; omega
  | ⟨2, _⟩ => show 0 + 1 * cl.val = cl.val; omega

end Loads

section Block

variable (yp : YIdx → EReal) (w : WIdx → EReal) (ft : FIdx → EReal) (b : Fin 32)
variable (x0 : Vec Ideal S1x1514x1602 .f32) (x1 : Vec Ideal S1x1602x6 .f32) (x2 : Vec Ideal S1x1514x6 .f32)
variable (h0 : ∀ (i : Fin 1514) (q : Fin 1602), x0 (ix3 (0 : Fin 1) i q) = ft (ix3 b i q))
variable (h1 : ∀ (j : Fin 1602) (cl : Fin 6), x1 (ix3 (0 : Fin 1) j cl) = w (ix3 b j cl))
variable (h2 : ∀ (i : Fin 1514) (cl : Fin 6), x2 (ix3 (0 : Fin 1) i cl) = yp (ix3 b i cl))

include h0 h1 h2 in
/-- A row of a block of batch b's rows contributes the specification's entry for that row. -/
theorem blockEntry_eq {R : Nat} (row : Fin R → Fin 1514) (fr : Fin R → Fin 1602 → EReal) (pr : Fin R → Fin 6 → EReal)
    (hf : ∀ r q, fr r q = x0 (ix3 (0 : Fin 1) (row r) q)) (hp : ∀ r cl, pr r cl = x2 (ix3 (0 : Fin 1) (row r) cl)) (r : Fin R) (cl : Fin 6) :
    Pay.blockEntry x1 fr pr r cl = entry yp w ft b (row r) cl := by
  unfold Pay.blockEntry entry fPos fNeg wPos wNeg
  rw [hp r cl, h2]
  refine congrArg₂ (· - ·) (congrArg _ (Finset.sum_congr rfl fun q _ => ?_)) (congrArg _ (Finset.sum_congr rfl fun q _ => ?_))
  · rw [hf r q, h0, h1]
  · rw [hf r q, h0, h1]

include h0 h1 h2 in
/-- The accumulator before chunk n is the specification's. -/
theorem acc_eq : ∀ n : ℕ, Body.accF x1 x0 x2 n (ix2 (0 : Fin 1) (0 : Fin 1)) = accBefore yp w ft b n
  | 0 => rfl
  | n + 1 => by
    by_cases h : n < 11
    · have h' : n < k0_t1_loop.trips := by rw [trips_eq]; exact h
      rw [Body.accF, dif_pos h', Pay.k0_pay3_apply, acc_eq n, accBefore, dif_pos h]
      refine congrArg _ (Finset.sum_congr rfl fun cl _ => Finset.sum_congr rfl fun r _ => ?_)
      exact blockEntry_eq yp w ft b x0 x1 x2 h0 h1 h2 (fun r => chunkRow ⟨n, h⟩ r) _ _
        (fun r q => featChunk_at x0 ⟨n, h'⟩ r q) (fun r cl => predChunk_at x2 ⟨n, h'⟩ r cl) r cl
    · have h' : ¬ n < k0_t1_loop.trips := by rw [trips_eq]; exact h
      rw [Body.accF, dif_neg h', acc_eq n, accBefore, dif_neg h]

include h0 h1 h2 in
/-- The block a point writes holds the batch's total at every lane. -/
theorem block_total (u v : Fin 1) (l : Fin 128) :
    k0_pay4 (F := Ideal) x1 (Body.accF x1 x0 x2 k0_t1_loop.trips) (Body.featTail x0) (Body.predTail x2) (ix3 u v l)
      = batchTotal yp w ft b := by
  rw [Pay.k0_pay4_apply, trips_eq, acc_eq yp w ft b x0 x1 x2 h0 h1 h2 11]
  unfold batchTotal tailSum
  refine congrArg _ (Finset.sum_congr rfl fun cl _ => Finset.sum_congr rfl fun r _ => ?_)
  exact blockEntry_eq yp w ft b x0 x1 x2 h0 h1 h2 (fun r => tailRow r) _ _
    (fun r q => featTail_at x0 r q) (fun r cl => predTail_at x2 r cl) r cl

end Block

section Array

variable (m : (ℓ : Loc nD τ sig) → Buf (Elt Ideal) ℓ)

/-- The printed index maps over the grid: every window's block index is (t, 0, 0). -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0) :=
  (by decide +kernel : ∀ t : Fin grid0.N, _)

/-- The batch a grid point works on. -/
def batchOf (t : Fin cfg0.N) : Fin 32 := ⟨t.val, Nat.lt_of_lt_of_eq t.isLt N_0⟩

/-- The features block at point t is batch t's features. -/
theorem iblk0_at (c : Dev nD) (t : Fin cfg0.N) (i : Fin 1514) (q : Fin 1602) :
    (iblk m c 0 t : Vec Ideal S1x1514x1602 .f32) (ix3 (0 : Fin 1) i q) = V m c main_arg4 (ix3 (batchOf t) i q) := by
  obtain ⟨⟨e0, e1, e2⟩, -, -, -⟩ := idx_facts t
  unfold iblk
  rw [View.read_apply]
  show V m c main_arg4 _ = V m c main_arg4 _
  congr 1
  funext a
  apply Fin.ext
  match a with
  | ⟨0, _⟩ => show win0_0.index t (0 : Fin 3) * 1 + 1 * 0 = t.val; omega
  | ⟨1, _⟩ => show win0_0.index t (1 : Fin 3) * 1514 + 1 * i.val = i.val; omega
  | ⟨2, _⟩ => show win0_0.index t (2 : Fin 3) * 1602 + 1 * q.val = q.val; omega

/-- The weights block at point t is batch t's weights. -/
theorem iblk1_at (c : Dev nD) (t : Fin cfg0.N) (j : Fin 1602) (cl : Fin 6) :
    (iblk m c 1 t : Vec Ideal S1x1602x6 .f32) (ix3 (0 : Fin 1) j cl) = V m c main_arg3 (ix3 (batchOf t) j cl) := by
  obtain ⟨-, ⟨e0, e1, e2⟩, -, -⟩ := idx_facts t
  unfold iblk
  rw [View.read_apply]
  show V m c main_arg3 _ = V m c main_arg3 _
  congr 1
  funext a
  apply Fin.ext
  match a with
  | ⟨0, _⟩ => show win0_1.index t (0 : Fin 3) * 1 + 1 * 0 = t.val; omega
  | ⟨1, _⟩ => show win0_1.index t (1 : Fin 3) * 1602 + 1 * j.val = j.val; omega
  | ⟨2, _⟩ => show win0_1.index t (2 : Fin 3) * 6 + 1 * cl.val = cl.val; omega

/-- The predictions block at point t is batch t's predictions. -/
theorem iblk2_at (c : Dev nD) (t : Fin cfg0.N) (i : Fin 1514) (cl : Fin 6) :
    (iblk m c 2 t : Vec Ideal S1x1514x6 .f32) (ix3 (0 : Fin 1) i cl) = V m c main_arg0 (ix3 (batchOf t) i cl) := by
  obtain ⟨-, -, ⟨e0, e1, e2⟩, -⟩ := idx_facts t
  unfold iblk
  rw [View.read_apply]
  show V m c main_arg0 _ = V m c main_arg0 _
  congr 1
  funext a
  apply Fin.ext
  match a with
  | ⟨0, _⟩ => show win0_2.index t (0 : Fin 3) * 1 + 1 * 0 = t.val; omega
  | ⟨1, _⟩ => show win0_2.index t (1 : Fin 3) * 1514 + 1 * i.val = i.val; omega
  | ⟨2, _⟩ => show win0_2.index t (2 : Fin 3) * 6 + 1 * cl.val = cl.val; omega

/-- What the kernel's output array ends holding: at (b, 0, l), batch b's total. -/
def totals (c : Dev nD) : S32x1x128.Idx → EReal := fun j =>
  batchTotal (V m c main_arg0) (V m c main_arg3) (V m c main_arg4) (⟨(j 0).val, (j 0).isLt⟩ : Fin 32)

/-- The block point t leaves holds batch t's total at every lane. -/
theorem point_val (c : Dev nD) (t : Fin cfg0.N) (u v : Fin 1) (l : Fin 128) :
    outsAt0 m c t (ix3 u v l) = batchTotal (V m c main_arg0) (V m c main_arg3) (V m c main_arg4) (batchOf t) := by
  unfold outsAt0
  rw [Body.out_val c (grid0.coords t) (ms0_0 t) (hs0_0 t) (ms0_1 t) (hs0_1 t) (ms0_2 t) (hs0_2 t) (ms0_3 t) (hs0_3 t)
    (iblk m c 0 t) (iblk m c 1 t) (iblk m c 2 t)]
  exact block_total (V m c main_arg0) (V m c main_arg3) (V m c main_arg4) (batchOf t) (iblk m c 0 t) (iblk m c 1 t) (iblk m c 2 t)
    (iblk0_at m c t) (iblk1_at m c t) (iblk2_at m c t) u v l

/-- What point t writes back is block t of the totals. -/
theorem flushed_eq (c : Dev nD) (t : Fin cfg0.N) :
    (dats m 0 c).flushed 3 t = ((cfg0.win 3).blk t).view.read (Elt Ideal) (totals m c) := by
  obtain ⟨-, -, -, ⟨e0, e1, e2⟩⟩ := idx_facts t
  show (cfg0.win 3).cut (grid0.coords t) ((dats m 0 c).after 3 t) = _
  rw [after0_3]
  funext j
  obtain ⟨u, v, l, rfl⟩ : ∃ (u v : Fin 1) (l : Fin 128), j = ix3 u v l := ⟨j 0, j 1, j 2, eq_ix3 j⟩
  show outsAt0 m c t (ix3 u v l) = totals m c (((cfg0.win 3).blk t).view.emb (ix3 u v l))
  rw [point_val]
  unfold totals
  congr 1
  apply Fin.ext
  show t.val = win0_3.index t (0 : Fin 3) * 1 + 1 * u.val
  have := u.isLt
  omega

/-- An index of the array is in point t's block iff each coordinate is in the block's range. -/
theorem mem_blk (t : Fin cfg0.N) (i : S32x1x128.Idx) :
    i ∈ ((cfg0.win 3).blk t).view.set ↔ ∀ a : Fin 3, win0_3.index t a * S1x1x128.size a ≤ (i a).val ∧ (i a).val < win0_3.index t a * S1x1x128.size a + S1x1x128.size a := by
  show i ∈ ((View.whole main_v0).slice (win0_3.rect t)).set ↔ _
  rw [View.set_slice_whole, Rect.mem_set_unit]
  exact Iff.rfl

/-- The kernel's output array after the run. -/
theorem final (c : Dev nD) : (dats m 0 c).arrAt 3 cfg0.N = totals m c :=
  (dats m 0 c).arrAt_eq_of_cover 3 (totals m c) (fun t _ => flushed_eq m c t) fun i => by
    have hi0 : (i 0).val < 32 := (i 0).isLt
    have hi1 : (i 1).val < 1 := (i 1).isLt
    have hi2 : (i 2).val < 128 := (i 2).isLt
    let t : Fin cfg0.N := ⟨(i 0).val, by rw [show cfg0.N = 32 from N_0]; exact hi0⟩
    obtain ⟨-, -, -, ⟨e0, e1, e2⟩⟩ := idx_facts t
    refine ⟨t, flush0_3 t, ?_⟩
    rw [mem_blk]
    intro a
    match a with
    | ⟨0, _⟩ => show win0_3.index t (0 : Fin 3) * 1 ≤ (i 0).val ∧ (i 0).val < win0_3.index t (0 : Fin 3) * 1 + 1; have : t.val = (i 0).val := rfl; omega
    | ⟨1, _⟩ => show win0_3.index t (1 : Fin 3) * 1 ≤ (i 1).val ∧ (i 1).val < win0_3.index t (1 : Fin 3) * 1 + 1; omega
    | ⟨2, _⟩ => show win0_3.index t (2 : Fin 3) * 128 ≤ (i 2).val ∧ (i 2).val < win0_3.index t (2 : Fin 3) * 128 + 128; omega

/-- A rank-1 index is its one coordinate. -/
def idxEquiv1 {n : Nat} : (⟨1, ![n]⟩ : Shape).Idx ≃ Fin n where
  toFun j := j 0
  invFun a := ix1 a
  left_inv j := (eq_ix1 j).symm
  right_inv a := rfl

/-- A sum over the indices of a rank-1 shape is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- Lane 0 of a [32, 1, 128] array, flattened and summed from zero: zero plus the sum over the 32 batches. -/
theorem hostSum_apply (A : S32x1x128.Idx → EReal) (i : S_.Idx) :
    Host.reduceAdd (F := Ideal) (shapeCast S32 (extractStridedSlice S32x1x1 ![0, 0, 0] A slices_S32x1x128_S32x1x1_0_0_0) shapeCasts_S32x1x1_S32)
        (constant S_ .f32 0x00000000#32) reducesTo_S32_S_d0 h_S_ i
      = zeroW + ∑ b : Fin 32, A (ix3 b (0 : Fin 1) (0 : Fin 128)) := by
  generalize hy : shapeCast S32 (extractStridedSlice S32x1x1 ![0, 0, 0] A slices_S32x1x128_S32x1x1_0_0_0) shapeCasts_S32x1x1_S32 = y
  simp only [Host.reduceAdd, Ideal.hostReduceAdd_def]
  rw [Ideal.hostReduceAdd_total reducesTo_S32_S_d0 (fun b => b.elim0) y _ i, sum_idx1]
  refine congrArg₂ (· + ·) rfl (Finset.sum_congr rfl fun (b : Fin 32) _ => ?_)
  rw [← hy]
  refine (shapeCast_apply _ shapeCasts_S32x1x1_S32 (ix1 b) (ix3 b (0 : Fin 1) (0 : Fin 1)) ?_).trans ?_
  · rw [Shape.rowMajor_val_three, Shape.rowMajor_val_one]
    show (b.val * 1 + 0) * 1 + 0 = b.val
    omega
  · exact extractStridedSlice_apply ![0, 0, 0] A slices_S32x1x128_S32x1x1_0_0_0 (ix3 b (0 : Fin 1) (0 : Fin 1)) (ix3 b (0 : Fin 1) (0 : Fin 128)) (fun a => match a with
      | ⟨0, _⟩ => by show b.val = 0 + b.val; omega
      | ⟨1, _⟩ => rfl
      | ⟨2, _⟩ => rfl)

/-- So the host's sum of the kernel's output array is the streaming evaluation of the specification. -/
theorem hostSum_totals (c : Dev nD) (i : S_.Idx) :
    Host.reduceAdd (F := Ideal) (shapeCast S32 (extractStridedSlice S32x1x1 ![0, 0, 0] (totals m c) slices_S32x1x128_S32x1x1_0_0_0) shapeCasts_S32x1x1_S32)
        (constant S_ .f32 0x00000000#32) reducesTo_S32_S_d0 h_S_ i
      = streamed (V m c main_arg0) (V m c main_arg3) (V m c main_arg4) := by
  rw [hostSum_apply]
  rfl

end Array

end Cert.KernelIdeal.Val

end
-- ==== Proof.KernelTail.lean ====
/-
  The kernel program's host operations after its region, read back window by window.

  After the region has filled the [32, 1, 128] buffer, the program runs a straight line of array operations: it reads
  lane 0 of every batch's row and adds the 32 values to zero; it gathers the predictions along the row axis by the
  integer indices (negative indices wrapped, out-of-range ones giving a not-a-number); it normalises the gathered values
  by their sum over the classes, clips, takes the logarithm, multiplies by the targets, sums over the classes, negates
  and scales; and it adds a tenth of the first scalar.  The line is cut into five stretches.  For each stretch, and for
  arbitrary contents before it, what the stretch leaves in the buffers that matter is stated as a function of what they
  held before; contents after a concatenation are contents after the second part of contents after the first.  The
  functions are the ones the reference program is read by, since both programs spell these steps alike.
-/
import proofs.«176934_j12687333393051_2_alg».proof.Proof.Gen.KernelIdeal.Launch
import proofs.«176934_j12687333393051_2_alg».proof.Proof.RefReadP
import Idealize.ShloMosaic.Lib.StableHlo.Run

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- Contents after two stretches run one after the other: after the second, of the contents after the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- Contents after five stretches given as one flattened list. -/
theorem after_flatten5 {τ : Topo} {sig : RefSig} {Val : EltTy → Type} (a b c d e : List (HloOp τ sig Val)) (V : Valuation τ sig Val) :
    after (List.flatten [a, b, c, d, e]) V = after e (after d (after c (after b (after a V)))) := by
  simp only [List.flatten_cons, List.flatten_nil, List.append_nil, after_append]

/-- The batches' totals, read off lane 0 of the kernel's [32, 1, 128] output and added to zero. -/
def lossSum (A : (⟨S32x1x128, .f32⟩ : BufTy).Contents (Elt F)) : (⟨S_, .f32⟩ : BufTy).Contents (Elt F) :=
  Host.reduceAdd (shapeCast S32 (extractStridedSlice S32x1x1 ![0, 0, 0] A slices_S32x1x128_S32x1x1_0_0_0) shapeCasts_S32x1x1_S32) (constant S_ .f32 0x00000000#32) reducesTo_S32_S_d0 h_S_

/-- The first loss term plus a tenth of the second, broadcast over [32, 512]. -/
def mix (L1 : (⟨S32x512, .f32⟩ : BufTy).Contents (Elt F)) (s : (⟨S_, .f32⟩ : BufTy).Contents (Elt F)) : (⟨S32x512, .f32⟩ : BufTy).Contents (Elt F) :=
  addf L1 (broadcastInDim S32x512 ![] bcast_S_S32x512 (mulf (constant S_ .f32 0x3DCCCCCD#32) s))

/-- The reference's result is the same mix of the same first term and its own second term. -/
theorem ref_mix (x0 : (⟨Cert.ReferenceIdeal.S32x1514x6, .f32⟩ : BufTy).Contents (Elt F)) (x1 : (⟨Cert.ReferenceIdeal.S32x512x6, .f32⟩ : BufTy).Contents (Elt F))
    (x2 : (⟨Cert.ReferenceIdeal.S32x512, .i32⟩ : BufTy).Contents (Elt F)) (x3 : (⟨Cert.ReferenceIdeal.S32x1602x6, .f32⟩ : BufTy).Contents (Elt F))
    (x4 : (⟨Cert.ReferenceIdeal.S32x1514x1602, .f32⟩ : BufTy).Contents (Elt F)) :
    Cert.ReferenceIdeal.Read.val_main_v27 (F := F) x0 x1 x2 x3 x4
      = mix (Cert.ReferenceIdeal.Read.val_main_v24 (F := F) x0 x1 x2) (Cert.ReferenceIdeal.Read.val_main_v10 (F := F) x0 x3 x4) := by
  unfold Cert.ReferenceIdeal.Read.val_main_v27 Cert.ReferenceIdeal.Read.val_main_v26 Cert.ReferenceIdeal.Read.val_main_v25
    Cert.ReferenceIdeal.Read.val_main_cst_11 mix
  rfl

/-! ## The first stretch: the second loss scalar and the index array -/

/-- The first stretch leaves the sum of the batches' totals in the scalar buffer. -/
theorem w1_v3 (W : Valuation τ sig (Elt F)) :
    after hostOps1 W (Proc.devRef .tc main_v3) = lossSum (W (Proc.devRef .tc main_v0)) := by
  after_results_simp
  rfl

/-- The first stretch leaves the indices, broadcast over the classes, in the index buffer. -/
theorem w1_v5 (W : Valuation τ sig (Elt F)) :
    after hostOps1 W (Proc.devRef .tc main_v5) = Cert.ReferenceIdeal.Read.val_main_v12 (F := F) (W (Proc.devRef .tc main_arg2)) := by
  after_results_simp
  rfl

/-- The first stretch keeps the predictions. -/
theorem w1_arg0 (W : Valuation τ sig (Elt F)) :
    after hostOps1 W (Proc.devRef .tc main_arg0) = W (Proc.devRef .tc main_arg0) := by
  after_results_simp

/-- The first stretch keeps the targets. -/
theorem w1_arg1 (W : Valuation τ sig (Elt F)) :
    after hostOps1 W (Proc.devRef .tc main_arg1) = W (Proc.devRef .tc main_arg1) := by
  after_results_simp

/-! ## The second stretch: the gather -/

/-- If the index buffer holds the broadcast indices, the second stretch leaves the gathered predictions. -/
theorem w2_v6 (W : Valuation τ sig (Elt F)) (x2 : (⟨Cert.ReferenceIdeal.S32x512, .i32⟩ : BufTy).Contents (Elt F))
    (h5 : W (Proc.devRef .tc main_v5) = Cert.ReferenceIdeal.Read.val_main_v12 (F := F) x2) :
    after hostOps1_1 W (Proc.devRef .tc main_v6)
      = Cert.ReferenceIdeal.Read.val_main_v13 (F := F) (W (Proc.devRef .tc main_arg0)) x2 := by
  after_results_simp
  rw [h5]
  simp only [TRef.toBuf, TRef.ofBuf, cast_eq]
  rfl

/-- The second stretch keeps the targets. -/
theorem w2_arg1 (W : Valuation τ sig (Elt F)) :
    after hostOps1_1 W (Proc.devRef .tc main_arg1) = W (Proc.devRef .tc main_arg1) := by
  after_results_simp

/-- The second stretch keeps the second loss scalar. -/
theorem w2_v3 (W : Valuation τ sig (Elt F)) :
    after hostOps1_1 W (Proc.devRef .tc main_v3) = W (Proc.devRef .tc main_v3) := by
  after_results_simp

/-! ## The third stretch: the normalisation and the two clipping bounds -/

/-- If the gather buffer holds the gathered predictions, the third stretch leaves them divided by their sum over
    the classes. -/
theorem w3_v10 (W : Valuation τ sig (Elt F)) (x0 : (⟨Cert.ReferenceIdeal.S32x1514x6, .f32⟩ : BufTy).Contents (Elt F))
    (x2 : (⟨Cert.ReferenceIdeal.S32x512, .i32⟩ : BufTy).Contents (Elt F))
    (h6 : W (Proc.devRef .tc main_v6) = Cert.ReferenceIdeal.Read.val_main_v13 (F := F) x0 x2) :
    after hostOps1_2 W (Proc.devRef .tc main_v10) = Cert.ReferenceIdeal.Read.val_main_v17 (F := F) x0 x2 := by
  after_results_simp
  rw [h6]
  rfl

/-- The third stretch writes the lower clipping bound. -/
theorem w3_cst_1 (W : Valuation τ sig (Elt F)) :
    after hostOps1_2 W (Proc.devRef .tc main_cst_1) = Cert.ReferenceIdeal.Read.val_main_cst_7 (F := F) := by
  after_results_simp
  rfl

/-- The third stretch writes the upper clipping bound. -/
theorem w3_cst_2 (W : Valuation τ sig (Elt F)) :
    after hostOps1_2 W (Proc.devRef .tc main_cst_2) = Cert.ReferenceIdeal.Read.val_main_cst_8 (F := F) := by
  after_results_simp
  rfl

/-- The third stretch keeps the gathered predictions. -/
theorem w3_v6 (W : Valuation τ sig (Elt F)) :
    after hostOps1_2 W (Proc.devRef .tc main_v6) = W (Proc.devRef .tc main_v6) := by
  after_results_simp

/-- The third stretch keeps the targets. -/
theorem w3_arg1 (W : Valuation τ sig (Elt F)) :
    after hostOps1_2 W (Proc.devRef .tc main_arg1) = W (Proc.devRef .tc main_arg1) := by
  after_results_simp

/-- The third stretch keeps the second loss scalar. -/
theorem w3_v3 (W : Valuation τ sig (Elt F)) :
    after hostOps1_2 W (Proc.devRef .tc main_v3) = W (Proc.devRef .tc main_v3) := by
  after_results_simp

/-! ## The fourth stretch: the clip -/

/-- If the three buffers hold the normalised values and the two bounds, the fourth stretch leaves the clipped values. -/
theorem w4_v11 (W : Valuation τ sig (Elt F)) (x0 : (⟨Cert.ReferenceIdeal.S32x1514x6, .f32⟩ : BufTy).Contents (Elt F))
    (x2 : (⟨Cert.ReferenceIdeal.S32x512, .i32⟩ : BufTy).Contents (Elt F))
    (h10 : W (Proc.devRef .tc main_v10) = Cert.ReferenceIdeal.Read.val_main_v17 (F := F) x0 x2)
    (hc1 : W (Proc.devRef .tc main_cst_1) = Cert.ReferenceIdeal.Read.val_main_cst_7 (F := F))
    (hc2 : W (Proc.devRef .tc main_cst_2) = Cert.ReferenceIdeal.Read.val_main_cst_8 (F := F)) :
    after hostOps1_3 W (Proc.devRef .tc main_v11) = Cert.ReferenceIdeal.Read.val_main_v18 (F := F) x0 x2 := by
  after_results_simp
  rw [h10, hc1, hc2]
  rfl

/-- The fourth stretch keeps the gathered predictions. -/
theorem w4_v6 (W : Valuation τ sig (Elt F)) :
    after hostOps1_3 W (Proc.devRef .tc main_v6) = W (Proc.devRef .tc main_v6) := by
  after_results_simp

/-- The fourth stretch keeps the targets. -/
theorem w4_arg1 (W : Valuation τ sig (Elt F)) :
    after hostOps1_3 W (Proc.devRef .tc main_arg1) = W (Proc.devRef .tc main_arg1) := by
  after_results_simp

/-- The fourth stretch keeps the second loss scalar. -/
theorem w4_v3 (W : Valuation τ sig (Elt F)) :
    after hostOps1_3 W (Proc.devRef .tc main_v3) = W (Proc.devRef .tc main_v3) := by
  after_results_simp

/-! ## The fifth stretch: the first loss term and the mix -/

/-- If the clip buffer holds the clipped values, the fifth stretch leaves the first loss term mixed with a tenth of
    whatever the second loss scalar's buffer holds. -/
theorem w5_v20 (W : Valuation τ sig (Elt F)) (x0 : (⟨Cert.ReferenceIdeal.S32x1514x6, .f32⟩ : BufTy).Contents (Elt F))
    (x2 : (⟨Cert.ReferenceIdeal.S32x512, .i32⟩ : BufTy).Contents (Elt F))
    (h11 : W (Proc.devRef .tc main_v11) = Cert.ReferenceIdeal.Read.val_main_v18 (F := F) x0 x2) :
    after hostOps1_4 W (Proc.devRef .tc main_v20)
      = mix (Cert.ReferenceIdeal.Read.val_main_v24 (F := F) x0 (W (Proc.devRef .tc main_arg1)) x2) (W (Proc.devRef .tc main_v3)) := by
  after_results_simp
  rw [h11]
  rfl

/-- The fifth stretch keeps the gathered predictions. -/
theorem w5_v6 (W : Valuation τ sig (Elt F)) :
    after hostOps1_4 W (Proc.devRef .tc main_v6) = W (Proc.devRef .tc main_v6) := by
  after_results_simp

/-! ## The whole line -/

/-- After the first two stretches the gather buffer holds the predictions gathered by the indices. -/
theorem gathered (W : Valuation τ sig (Elt F)) :
    after hostOps1_1 (after hostOps1 W) (Proc.devRef .tc main_v6)
      = Cert.ReferenceIdeal.Read.val_main_v13 (F := F) (W (Proc.devRef .tc main_arg0)) (W (Proc.devRef .tc main_arg2)) := by
  rw [w2_v6 (after hostOps1 W) (W (Proc.devRef .tc main_arg2)) (w1_v5 W), w1_arg0]

/-- The program's first result: the first loss term mixed with a tenth of the sum of the batches' totals. -/
theorem tail_loss (W : Valuation τ sig (Elt F)) :
    StableHlo.after (List.flatten [hostOps1, hostOps1_1, hostOps1_2, hostOps1_3, hostOps1_4]) W (Proc.devRef .tc main_v20)
      = mix (Cert.ReferenceIdeal.Read.val_main_v24 (F := F) (W (Proc.devRef .tc main_arg0)) (W (Proc.devRef .tc main_arg1)) (W (Proc.devRef .tc main_arg2)))
            (lossSum (W (Proc.devRef .tc main_v0))) := by
  rw [after_flatten5]
  have h6 := gathered W
  have h10 := w3_v10 _ _ _ h6
  have h11 := w4_v11 _ _ _ (by rw [h10]) (w3_cst_1 _) (w3_cst_2 _)
  rw [w5_v20 _ _ _ h11, w4_arg1, w3_arg1, w2_arg1, w1_arg1, w4_v3, w3_v3, w2_v3, w1_v3]

/-- The program's second result: the predictions gathered by the indices. -/
theorem tail_gather (W : Valuation τ sig (Elt F)) :
    StableHlo.after (List.flatten [hostOps1, hostOps1_1, hostOps1_2, hostOps1_3, hostOps1_4]) W (Proc.devRef .tc main_v6)
      = Cert.ReferenceIdeal.Read.val_main_v13 (F := F) (W (Proc.devRef .tc main_arg0)) (W (Proc.devRef .tc main_arg2)) := by
  rw [after_flatten5, w5_v6, w4_v6, w3_v6, gathered]

end Cert.KernelIdeal.Tail

end
-- ==== Proof.KernelRun.lean ====
/-
  The kernel program's run at the exact instance, with both results named.

  The region leaves the [32, 1, 128] array at the batches' totals and the arguments as they were; the host operations
  after it turn that array into the second loss term's scalar, gather the predictions, and mix the two loss terms.
-/
import proofs.«176934_j12687333393051_2_alg».proof.Proof.KernelValue
import proofs.«176934_j12687333393051_2_alg».proof.Proof.KernelTail
import Idealize.ShloMosaic.Lib.Pipeline.Value

noncomputable section

namespace Cert.KernelIdeal.KRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- What the host operations after the region start from: the region's arrays as it leaves them, every other buffer as launched. -/
abbrev exitVal (c : Dev nD) : Valuation τ sig (Elt Ideal) :=
  Pipeline.withArrays (cfgs 0).spec c (V0 m c) fun w => (dats m 0 c).arrAt w (cfgs 0).N

theorem exit_v0 (c : Dev nD) : exitVal m c (Proc.devRef .tc main_v0) = Val.totals m c :=
  (Pipeline.withArrays_arr spec0 launch0.win.arr_inj c _ _ 3).trans (Val.final m c)

theorem exit_arg0 (c : Dev nD) : exitVal m c (Proc.devRef .tc main_arg0) = m ((c.tc : Thread nD τ).loc main_arg0) :=
  (Pipeline.withArrays_arr spec0 launch0.win.arr_inj c _ _ 2).trans
    (((dats m 0 c).arrAt_in 2 rfl _).trans ((A_eq m c 2).trans (V_main_arg0 m c)))

theorem exit_arg1 (c : Dev nD) : exitVal m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)

theorem exit_arg2 (c : Dev nD) : exitVal m c (Proc.devRef .tc main_arg2) = m ((c.tc : Thread nD τ).loc main_arg2) :=
  (Pipeline.withArrays_of_ne _ c (V0 m c) _ main_arg2 (by exact (by decide : ∀ w, Pipeline.arrRef spec0 w ≠ main_arg2))).trans (V_main_arg2 m c)

/-- The loss result: the first term mixed with the host's sum of the batches' totals. -/
abbrev lossOut (c : Dev nD) : Buf (Elt Ideal) ((c.tc : Thread nD τ).loc main_v20) :=
  Tail.mix (Cert.ReferenceIdeal.Read.val_main_v24 (F := Ideal) (m ((c.tc : Thread nD τ).loc main_arg0)) (m ((c.tc : Thread nD τ).loc main_arg1)) (m ((c.tc : Thread nD τ).loc main_arg2)))
    (Tail.lossSum (Val.totals m c))

/-- The gathered predictions. -/
abbrev gatherOut (c : Dev nD) : Buf (Elt Ideal) ((c.tc : Thread nD τ).loc main_v6) :=
  Cert.ReferenceIdeal.Read.val_main_v13 (F := Ideal) (m ((c.tc : Thread nD τ).loc main_arg0)) (m ((c.tc : Thread nD τ).loc main_arg2))

theorem tail_v20 (c : Dev nD) :
    Pipeline.afterTail₀ cfgs (dats m) 0 (V0 m) [hostOps1, hostOps1_1, hostOps1_2, hostOps1_3, hostOps1_4] c main_v20 = lossOut m c := by
  unfold Pipeline.afterTail₀
  refine (Tail.tail_loss (F := Ideal) (exitVal m c)).trans ?_
  rw [exit_v0, exit_arg0, exit_arg1, exit_arg2]

theorem tail_v6 (c : Dev nD) :
    Pipeline.afterTail₀ cfgs (dats m) 0 (V0 m) [hostOps1, hostOps1_1, hostOps1_2, hostOps1_3, hostOps1_4] c main_v6 = gatherOut m c := by
  unfold Pipeline.afterTail₀
  refine (Tail.tail_gather (F := Ideal) (exitVal m c)).trans ?_
  rw [exit_arg0, exit_arg2]

/-- Every weakly fair execution ends with the two results at these values and the arguments unchanged. -/
theorem run : θ_run defs (onTc (τ := τ) (main (F := Ideal))) ⟨m, fun _ => 0, ρ⟩ fun r => ∀ c : Dev nD,
      r.2.mem ((c.tc : Thread nD τ).loc main_v20) = lossOut m c
      ∧ r.2.mem ((c.tc : Thread nD τ).loc main_v6) = gatherOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v20 (Pipeline.mem_restRefs_of main_v20 (by decide) (by decide))).trans (tail_v20 m c),
      ((h c).2 main_v6 (Pipeline.mem_restRefs_of main_v6 (by decide) (by decide))).trans (tail_v6 m c),
      ((h c).1 2).trans (((dats m 0 c).arrAt_in 2 rfl _).trans ((A_eq m c 2).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 1).trans (((dats m 0 c).arrAt_in 1 rfl _).trans ((A_eq m c 1).trans (V_main_arg3 m c))),
      ((h c).1 0).trans (((dats m 0 c).arrAt_in 0 rfl _).trans ((A_eq m c 0).trans (V_main_arg4 m c)))⟩)
    (run_main m ρ)

end Cert.KernelIdeal.KRun

end
-- ==== Proof.RefRun.lean ====
/-
  The reference program's run, read back window by window.

  The reference program is a straight line of 77 host operations on named buffers. Running the line from contents `V`
  is a fold (`after`) that rewrites, operation by operation, the one buffer the operation writes. Evaluating the
  whole fold at a result buffer in one step multiplies out every shared intermediate value (the wrapped gather index
  is read three times, each reading the broadcast index three times, and the gathered array is read twice more
  downstream). Instead the line is cut into five windows of consecutive operations where the data flow is narrow; a
  fold over a concatenation is the fold over the second list from the fold over the first (`after_append`), so each
  window is evaluated on its own, from ARBITRARY contents `W`, at the few buffers a later window still reads:
  what it writes there is the matching named stage `Read.val_…` of the arguments, given that the buffers it reads
  hold their stages; the buffers it does not write keep what they held. Chaining the windows gives the two results as
  `Read.val_main_v27` and `Read.val_main_v13` of the five arguments' launch contents.
-/
import proofs.«176934_j12687333393051_2_alg».proof.Proof.RefReadP
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference program's 77 host operations, in program order. -/
abbrev ops : List (HloOp τ sig (Elt F)) :=
  [ nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S32x1602x6, .f32⟩) main_call0_v1) (broadcastInDim S32x1602x6 ![] bcast_S_S32x1602x6),
    TRef.binary (TRef.of (T := ⟨S32x1602x6, .f32⟩) main_call0_v1) (TRef.of (T := ⟨S32x1602x6, .f32⟩) main_arg3) (TRef.of (T := ⟨S32x1602x6, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S32x1602x6, .f32⟩) main_call0_v4) (broadcastInDim S32x1602x6 ![] bcast_S_S32x1602x6),
    TRef.binary (TRef.of (T := ⟨S32x1602x6, .f32⟩) main_call0_v4) (TRef.of (T := ⟨S32x1602x6, .f32⟩) main_call0_v2) (TRef.of (T := ⟨S32x1602x6, .f32⟩) main_v0) minimumf,
    nullary main_cst_1 (constant S_ .f32 0xBF800000#32),
    nullary main_cst_2 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S32x1602x6, .f32⟩) main_call1_v1) (broadcastInDim S32x1602x6 ![] bcast_S_S32x1602x6),
    TRef.binary (TRef.of (T := ⟨S32x1602x6, .f32⟩) main_call1_v1) (TRef.of (T := ⟨S32x1602x6, .f32⟩) main_arg3) (TRef.of (T := ⟨S32x1602x6, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S32x1602x6, .f32⟩) main_call1_v4) (broadcastInDim S32x1602x6 ![] bcast_S_S32x1602x6),
    TRef.binary (TRef.of (T := ⟨S32x1602x6, .f32⟩) main_call1_v4) (TRef.of (T := ⟨S32x1602x6, .f32⟩) main_call1_v2) (TRef.of (T := ⟨S32x1602x6, .f32⟩) main_v1) minimumf,
    binary main_arg4 main_v0 main_v2 ((fun l r => Host.dotGeneral dot_S32x1514x1602_S32x1602x6_S32x1514x6_2_1_1_2_0_0 none l r) : (⟨S32x1514x1602, .f32⟩ : BufTy).Contents (Elt F) → (⟨S32x1602x6, .f32⟩ : BufTy).Contents (Elt F) → (⟨S32x1514x6, .f32⟩ : BufTy).Contents (Elt F)),
    binary main_arg4 main_v1 main_v3 ((fun l r => Host.dotGeneral dot_S32x1514x1602_S32x1602x6_S32x1514x6_2_1_1_2_0_0 none l r) : (⟨S32x1514x1602, .f32⟩ : BufTy).Contents (Elt F) → (⟨S32x1602x6, .f32⟩ : BufTy).Contents (Elt F) → (⟨S32x1514x6, .f32⟩ : BufTy).Contents (Elt F)),
    nullary main_cst_3 (constant S_ .f32 0x3F800000#32),
    unary main_cst_3 main_v4 (broadcastInDim S32x1514x6 ![] bcast_S_S32x1514x6 : (⟨S_, .f32⟩ : BufTy).Contents (Elt F) → (⟨S32x1514x6, .f32⟩ : BufTy).Contents (Elt F)),
    binary main_v4 main_arg0 main_v5 (subf : (⟨S32x1514x6, .f32⟩ : BufTy).Contents (Elt F) → (⟨S32x1514x6, .f32⟩ : BufTy).Contents (Elt F) → (⟨S32x1514x6, .f32⟩ : BufTy).Contents (Elt F)),
    binary main_v5 main_v2 main_v6 (mulf : (⟨S32x1514x6, .f32⟩ : BufTy).Contents (Elt F) → (⟨S32x1514x6, .f32⟩ : BufTy).Contents (Elt F) → (⟨S32x1514x6, .f32⟩ : BufTy).Contents (Elt F)),
    nullary main_cst_4 (constant S_ .f32 0x00000000#32),
    binary main_v6 main_cst_4 main_v7 ((fun x v => Host.reduceAdd x v reducesTo_S32x1514x6_S_d0_1_2 h_S_) : (⟨S32x1514x6, .f32⟩ : BufTy).Contents (Elt F) → (⟨S_, .f32⟩ : BufTy).Contents (Elt F) → (⟨S_, .f32⟩ : BufTy).Contents (Elt F)),
    binary main_arg0 main_v3 main_v8 (mulf : (⟨S32x1514x6, .f32⟩ : BufTy).Contents (Elt F) → (⟨S32x1514x6, .f32⟩ : BufTy).Contents (Elt F) → (⟨S32x1514x6, .f32⟩ : BufTy).Contents (Elt F)),
    nullary main_cst_5 (constant S_ .f32 0x00000000#32),
    binary main_v8 main_cst_5 main_v9 ((fun x v => Host.reduceAdd x v reducesTo_S32x1514x6_S_d0_1_2 h_S_) : (⟨S32x1514x6, .f32⟩ : BufTy).Contents (Elt F) → (⟨S_, .f32⟩ : BufTy).Contents (Elt F) → (⟨S_, .f32⟩ : BufTy).Contents (Elt F)),
    binary main_v7 main_v9 main_v10 (subf : (⟨S_, .f32⟩ : BufTy).Contents (Elt F) → (⟨S_, .f32⟩ : BufTy).Contents (Elt F) → (⟨S_, .f32⟩ : BufTy).Contents (Elt F)),
    unary main_arg2 main_v11 (broadcastInDim S32x512x1 ![0, 1] bcast_S32x512_S32x512x1_0_1 : (⟨S32x512, .i32⟩ : BufTy).Contents (Elt F) → (⟨S32x512x1, .i32⟩ : BufTy).Contents (Elt F)),
    unary main_v11 main_v12 (broadcastInDim S32x512x6 ![0, 1, 2] bcast_S32x512x1_S32x512x6_0_1_2 : (⟨S32x512x1, .i32⟩ : BufTy).Contents (Elt F) → (⟨S32x512x6, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S32x512x6, .i32⟩) main_call2_v0) (broadcastInDim S32x512x6 ![] bcast_S_S32x512x6),
    TRef.binary (TRef.of (T := ⟨S32x512x6, .i32⟩) main_v12) (TRef.of (T := ⟨S32x512x6, .i32⟩) main_call2_v0) (TRef.of (T := ⟨S32x512x6, .i1⟩) main_call2_v1) (cmpi .slt),
    TRef.nullary (TRef.of (T := ⟨S_, .i32⟩) main_call2_c_0) (constantI S_ 32 1514#32),
    TRef.unary (TRef.of (T := ⟨S_, .i32⟩) main_call2_c_0) (TRef.of (T := ⟨S32x512x6, .i32⟩) main_call2_v2) (broadcastInDim S32x512x6 ![] bcast_S_S32x512x6),
    TRef.binary (TRef.of (T := ⟨S32x512x6, .i32⟩) main_v12) (TRef.of (T := ⟨S32x512x6, .i32⟩) main_call2_v2) (TRef.of (T := ⟨S32x512x6, .i32⟩) main_call2_v3) addi,
    TRef.ternary (TRef.of (T := ⟨S32x512x6, .i1⟩) main_call2_v1) (TRef.of (T := ⟨S32x512x6, .i32⟩) main_call2_v3) (TRef.of (T := ⟨S32x512x6, .i32⟩) main_v12) (TRef.of (T := ⟨S32x512x6, .i32⟩) main_call2_v4) select,
    TRef.reshape (TRef.of (T := ⟨S32x512x6, .i32⟩) main_call2_v4) (TRef.of (T := ⟨S32x512x6x1, .i32⟩) main_call2_v5) rfl shapeCasts_S32x512x6_S32x512x6x1,
    TRef.nullary (TRef.of (T := ⟨S1, .i32⟩) main_call2_c_1) (constantI S1 32 1513#32),
    TRef.nullary (TRef.of (T := ⟨S_, .i32⟩) main_call2_c_2) (constantI S_ 32 0#32),
    TRef.unary (TRef.of (T := ⟨S_, .i32⟩) main_call2_c_2) (TRef.of (T := ⟨S32x512x6x1, .i32⟩) main_call2_v6) (broadcastInDim S32x512x6x1 ![] bcast_S_S32x512x6x1),
    TRef.binary (TRef.of (T := ⟨S32x512x6x1, .i32⟩) main_call2_v5) (TRef.of (T := ⟨S32x512x6x1, .i32⟩) main_call2_v6) (TRef.of (T := ⟨S32x512x6x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S32x512x6x1, .i32⟩) main_call2_v9) (broadcastInDim S32x512x6x1 ![0, 1, 2, 3] bcast_S1x1x1x1_S32x512x6x1_0_1_2_3),
    TRef.binary (TRef.of (T := ⟨S32x512x6x1, .i32⟩) main_call2_v5) (TRef.of (T := ⟨S32x512x6x1, .i32⟩) main_call2_v9) (TRef.of (T := ⟨S32x512x6x1, .i1⟩) main_call2_v10) (cmpi .sle),
    TRef.binary (TRef.of (T := ⟨S32x512x6x1, .i1⟩) main_call2_v7) (TRef.of (T := ⟨S32x512x6x1, .i1⟩) main_call2_v10) (TRef.of (T := ⟨S32x512x6x1, .i1⟩) main_call2_v11) andi,
    TRef.nullary (TRef.of (T := ⟨S_, .i1⟩) main_call2_c_3) (constantI S_ 1 1#1),
    TRef.binary (TRef.of (T := ⟨S32x512x6x1, .i1⟩) main_call2_v11) (TRef.of (T := ⟨S_, .i1⟩) main_call2_c_3) (TRef.of (T := ⟨S32x512x6, .i1⟩) main_call2_v12) (fun x v => Host.reduce IntOp.andi x v reducesTo_S32x512x6x1_S32x512x6_d3 h_S_),
    TRef.binary (TRef.of (T := ⟨S32x1514x6, .f32⟩) main_arg0) (TRef.of (T := ⟨S32x512x6x1, .i32⟩) main_call2_v5) (TRef.of (T := ⟨S32x512x6, .f32⟩) main_call2_v13) (fun x i => Host.gather gather_S32x1514x6_S32x512x6x1_S32x512x6_n_1_02_02_1_3_111 x i),
    TRef.nullary (TRef.of (T := ⟨S_, .f32⟩) main_call2_cst) (constant S_ .f32 0x7FC00000#32),
    TRef.unary (TRef.of (T := ⟨S_, .f32⟩) main_call2_cst) (TRef.of (T := ⟨S32x512x6, .f32⟩) main_call2_v14) (broadcastInDim S32x512x6 ![] bcast_S_S32x512x6),
    TRef.ternary (TRef.of (T := ⟨S32x512x6, .i1⟩) main_call2_v12) (TRef.of (T := ⟨S32x512x6, .f32⟩) main_call2_v13) (TRef.of (T := ⟨S32x512x6, .f32⟩) main_call2_v14) (TRef.of (T := ⟨S32x512x6, .f32⟩) main_v13) select,
    nullary main_cst_6 (constant S_ .f32 0x00000000#32),
    binary main_v13 main_cst_6 main_v14 ((fun x v => Host.reduceAdd x v reducesTo_S32x512x6_S32x512_d2 h_S_) : (⟨S32x512x6, .f32⟩ : BufTy).Contents (Elt F) → (⟨S_, .f32⟩ : BufTy).Contents (Elt F) → (⟨S32x512, .f32⟩ : BufTy).Contents (Elt F)),
    unary main_v14 main_v15 (broadcastInDim S32x512x1 ![0, 1] bcast_S32x512_S32x512x1_0_1 : (⟨S32x512, .f32⟩ : BufTy).Contents (Elt F) → (⟨S32x512x1, .f32⟩ : BufTy).Contents (Elt F)),
    unary main_v15 main_v16 (broadcastInDim S32x512x6 ![0, 1, 2] bcast_S32x512x1_S32x512x6_0_1_2 : (⟨S32x512x1, .f32⟩ : BufTy).Contents (Elt F) → (⟨S32x512x6, .f32⟩ : BufTy).Contents (Elt F)),
    binary main_v13 main_v16 main_v17 (Host.divf : (⟨S32x512x6, .f32⟩ : BufTy).Contents (Elt F) → (⟨S32x512x6, .f32⟩ : BufTy).Contents (Elt F) → (⟨S32x512x6, .f32⟩ : BufTy).Contents (Elt F)),
    nullary main_cst_7 (constant S_ .f32 0x33D6BF95#32),
    nullary main_cst_8 (constant S_ .f32 0x3F7FFFFE#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S32x512x6, .f32⟩) main_call3_v1) (broadcastInDim S32x512x6 ![] bcast_S_S32x512x6),
    TRef.binary (TRef.of (T := ⟨S32x512x6, .f32⟩) main_call3_v1) (TRef.of (T := ⟨S32x512x6, .f32⟩) main_v17) (TRef.of (T := ⟨S32x512x6, .f32⟩) main_call3_v2) maximumf,
    TRef.unary (TRef.of (T := ⟨S_, .f32⟩) main_cst_8) (TRef.of (T := ⟨S_, .f32⟩) main_call3_v3) id,
    TRef.unary (TRef.of (T := ⟨S_, .f32⟩) main_call3_v3) (TRef.of (T := ⟨S32x512x6, .f32⟩) main_call3_v4) (broadcastInDim S32x512x6 ![] bcast_S_S32x512x6),
    TRef.binary (TRef.of (T := ⟨S32x512x6, .f32⟩) main_call3_v4) (TRef.of (T := ⟨S32x512x6, .f32⟩) main_call3_v2) (TRef.of (T := ⟨S32x512x6, .f32⟩) main_v18) minimumf,
    unary main_v18 main_v19 (Host.log : (⟨S32x512x6, .f32⟩ : BufTy).Contents (Elt F) → (⟨S32x512x6, .f32⟩ : BufTy).Contents (Elt F)),
    binary main_arg1 main_v19 main_v20 (mulf : (⟨S32x512x6, .f32⟩ : BufTy).Contents (Elt F) → (⟨S32x512x6, .f32⟩ : BufTy).Contents (Elt F) → (⟨S32x512x6, .f32⟩ : BufTy).Contents (Elt F)),
    nullary main_cst_9 (constant S_ .f32 0x00000000#32),
    binary main_v20 main_cst_9 main_v21 ((fun x v => Host.reduceAdd x v reducesTo_S32x512x6_S32x512_d2 h_S_) : (⟨S32x512x6, .f32⟩ : BufTy).Contents (Elt F) → (⟨S_, .f32⟩ : BufTy).Contents (Elt F) → (⟨S32x512, .f32⟩ : BufTy).Contents (Elt F)),
    unary main_v21 main_v22 (Host.negf : (⟨S32x512, .f32⟩ : BufTy).Contents (Elt F) → (⟨S32x512, .f32⟩ : BufTy).Contents (Elt F)),
    nullary main_cst_10 (constant S_ .f32 0x3F666666#32),
    unary main_cst_10 main_v23 (broadcastInDim S32x512 ![] bcast_S_S32x512 : (⟨S_, .f32⟩ : BufTy).Contents (Elt F) → (⟨S32x512, .f32⟩ : BufTy).Contents (Elt F)),
    binary main_v23 main_v22 main_v24 (mulf : (⟨S32x512, .f32⟩ : BufTy).Contents (Elt F) → (⟨S32x512, .f32⟩ : BufTy).Contents (Elt F) → (⟨S32x512, .f32⟩ : BufTy).Contents (Elt F)),
    nullary main_cst_11 (constant S_ .f32 0x3DCCCCCD#32),
    binary main_cst_11 main_v10 main_v25 (mulf : (⟨S_, .f32⟩ : BufTy).Contents (Elt F) → (⟨S_, .f32⟩ : BufTy).Contents (Elt F) → (⟨S_, .f32⟩ : BufTy).Contents (Elt F)),
    unary main_v25 main_v26 (broadcastInDim S32x512 ![] bcast_S_S32x512 : (⟨S_, .f32⟩ : BufTy).Contents (Elt F) → (⟨S32x512, .f32⟩ : BufTy).Contents (Elt F)),
    binary main_v24 main_v26 main_v27 (addf : (⟨S32x512, .f32⟩ : BufTy).Contents (Elt F) → (⟨S32x512, .f32⟩ : BufTy).Contents (Elt F) → (⟨S32x512, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., binary_bufs_sub .., binary_bufs_sub .., nullary_bufs_sub .., unary_bufs_sub .., binary_bufs_sub .., binary_bufs_sub .., nullary_bufs_sub .., binary_bufs_sub .., binary_bufs_sub .., nullary_bufs_sub .., binary_bufs_sub .., binary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., unary_bufs_sub .., binary_bufs_sub .., nullary_bufs_sub .., binary_bufs_sub .., unary_bufs_sub .., nullary_bufs_sub .., unary_bufs_sub .., binary_bufs_sub .., nullary_bufs_sub .., binary_bufs_sub .., unary_bufs_sub .., binary_bufs_sub ..⟩

/-- Operations 1–16: the two clips of the fourth argument (to [0, 1] and to [-1, 0]). -/
abbrev w1 : List (HloOp τ sig (Elt F)) :=
  [ nullary main_cst (constant S_ .f32 0x00000000#32),
    nullary main_cst_0 (constant S_ .f32 0x3F800000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S32x1602x6, .f32⟩) main_call0_v1) (broadcastInDim S32x1602x6 ![] bcast_S_S32x1602x6),
    TRef.binary (TRef.of (T := ⟨S32x1602x6, .f32⟩) main_call0_v1) (TRef.of (T := ⟨S32x1602x6, .f32⟩) main_arg3) (TRef.of (T := ⟨S32x1602x6, .f32⟩) main_call0_v2) maximumf,
    TRef.unary (TRef.of (T := ⟨S_, .f32⟩) main_cst_0) (TRef.of (T := ⟨S_, .f32⟩) main_call0_v3) id,
    TRef.unary (TRef.of (T := ⟨S_, .f32⟩) main_call0_v3) (TRef.of (T := ⟨S32x1602x6, .f32⟩) main_call0_v4) (broadcastInDim S32x1602x6 ![] bcast_S_S32x1602x6),
    TRef.binary (TRef.of (T := ⟨S32x1602x6, .f32⟩) main_call0_v4) (TRef.of (T := ⟨S32x1602x6, .f32⟩) main_call0_v2) (TRef.of (T := ⟨S32x1602x6, .f32⟩) main_v0) minimumf,
    nullary main_cst_1 (constant S_ .f32 0xBF800000#32),
    nullary main_cst_2 (constant S_ .f32 0x00000000#32),
    TRef.unary (TRef.of (T := ⟨S_, .f32⟩) main_cst_1) (TRef.of (T := ⟨S_, .f32⟩) main_call1_v0) id,
    TRef.unary (TRef.of (T := ⟨S_, .f32⟩) main_call1_v0) (TRef.of (T := ⟨S32x1602x6, .f32⟩) main_call1_v1) (broadcastInDim S32x1602x6 ![] bcast_S_S32x1602x6),
    TRef.binary (TRef.of (T := ⟨S32x1602x6, .f32⟩) main_call1_v1) (TRef.of (T := ⟨S32x1602x6, .f32⟩) main_arg3) (TRef.of (T := ⟨S32x1602x6, .f32⟩) main_call1_v2) maximumf,
    TRef.unary (TRef.of (T := ⟨S_, .f32⟩) main_cst_2) (TRef.of (T := ⟨S_, .f32⟩) main_call1_v3) id,
    TRef.unary (TRef.of (T := ⟨S_, .f32⟩) main_call1_v3) (TRef.of (T := ⟨S32x1602x6, .f32⟩) main_call1_v4) (broadcastInDim S32x1602x6 ![] bcast_S_S32x1602x6),
    TRef.binary (TRef.of (T := ⟨S32x1602x6, .f32⟩) main_call1_v4) (TRef.of (T := ⟨S32x1602x6, .f32⟩) main_call1_v2) (TRef.of (T := ⟨S32x1602x6, .f32⟩) main_v1) minimumf ]

/-- Operations 17–28: the two contractions against the fifth argument, the two products with the first argument, the two whole-array sums and their difference. -/
abbrev w2 : List (HloOp τ sig (Elt F)) :=
  [ binary main_arg4 main_v0 main_v2 ((fun l r => Host.dotGeneral dot_S32x1514x1602_S32x1602x6_S32x1514x6_2_1_1_2_0_0 none l r) : (⟨S32x1514x1602, .f32⟩ : BufTy).Contents (Elt F) → (⟨S32x1602x6, .f32⟩ : BufTy).Contents (Elt F) → (⟨S32x1514x6, .f32⟩ : BufTy).Contents (Elt F)),
    binary main_arg4 main_v1 main_v3 ((fun l r => Host.dotGeneral dot_S32x1514x1602_S32x1602x6_S32x1514x6_2_1_1_2_0_0 none l r) : (⟨S32x1514x1602, .f32⟩ : BufTy).Contents (Elt F) → (⟨S32x1602x6, .f32⟩ : BufTy).Contents (Elt F) → (⟨S32x1514x6, .f32⟩ : BufTy).Contents (Elt F)),
    nullary main_cst_3 (constant S_ .f32 0x3F800000#32),
    unary main_cst_3 main_v4 (broadcastInDim S32x1514x6 ![] bcast_S_S32x1514x6 : (⟨S_, .f32⟩ : BufTy).Contents (Elt F) → (⟨S32x1514x6, .f32⟩ : BufTy).Contents (Elt F)),
    binary main_v4 main_arg0 main_v5 (subf : (⟨S32x1514x6, .f32⟩ : BufTy).Contents (Elt F) → (⟨S32x1514x6, .f32⟩ : BufTy).Contents (Elt F) → (⟨S32x1514x6, .f32⟩ : BufTy).Contents (Elt F)),
    binary main_v5 main_v2 main_v6 (mulf : (⟨S32x1514x6, .f32⟩ : BufTy).Contents (Elt F) → (⟨S32x1514x6, .f32⟩ : BufTy).Contents (Elt F) → (⟨S32x1514x6, .f32⟩ : BufTy).Contents (Elt F)),
    nullary main_cst_4 (constant S_ .f32 0x00000000#32),
    binary main_v6 main_cst_4 main_v7 ((fun x v => Host.reduceAdd x v reducesTo_S32x1514x6_S_d0_1_2 h_S_) : (⟨S32x1514x6, .f32⟩ : BufTy).Contents (Elt F) → (⟨S_, .f32⟩ : BufTy).Contents (Elt F) → (⟨S_, .f32⟩ : BufTy).Contents (Elt F)),
    binary main_arg0 main_v3 main_v8 (mulf : (⟨S32x1514x6, .f32⟩ : BufTy).Contents (Elt F) → (⟨S32x1514x6, .f32⟩ : BufTy).Contents (Elt F) → (⟨S32x1514x6, .f32⟩ : BufTy).Contents (Elt F)),
    nullary main_cst_5 (constant S_ .f32 0x00000000#32),
    binary main_v8 main_cst_5 main_v9 ((fun x v => Host.reduceAdd x v reducesTo_S32x1514x6_S_d0_1_2 h_S_) : (⟨S32x1514x6, .f32⟩ : BufTy).Contents (Elt F) → (⟨S_, .f32⟩ : BufTy).Contents (Elt F) → (⟨S_, .f32⟩ : BufTy).Contents (Elt F)),
    binary main_v7 main_v9 main_v10 (subf : (⟨S_, .f32⟩ : BufTy).Contents (Elt F) → (⟨S_, .f32⟩ : BufTy).Contents (Elt F) → (⟨S_, .f32⟩ : BufTy).Contents (Elt F)) ]

/-- Operations 29–38: the index array broadcast along the last axis, negative indices wrapped by the axis length, reshaped to gather indices. -/
abbrev w3a : List (HloOp τ sig (Elt F)) :=
  [ unary main_arg2 main_v11 (broadcastInDim S32x512x1 ![0, 1] bcast_S32x512_S32x512x1_0_1 : (⟨S32x512, .i32⟩ : BufTy).Contents (Elt F) → (⟨S32x512x1, .i32⟩ : BufTy).Contents (Elt F)),
    unary main_v11 main_v12 (broadcastInDim S32x512x6 ![0, 1, 2] bcast_S32x512x1_S32x512x6_0_1_2 : (⟨S32x512x1, .i32⟩ : BufTy).Contents (Elt F) → (⟨S32x512x6, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S32x512x6, .i32⟩) main_call2_v0) (broadcastInDim S32x512x6 ![] bcast_S_S32x512x6),
    TRef.binary (TRef.of (T := ⟨S32x512x6, .i32⟩) main_v12) (TRef.of (T := ⟨S32x512x6, .i32⟩) main_call2_v0) (TRef.of (T := ⟨S32x512x6, .i1⟩) main_call2_v1) (cmpi .slt),
    TRef.nullary (TRef.of (T := ⟨S_, .i32⟩) main_call2_c_0) (constantI S_ 32 1514#32),
    TRef.unary (TRef.of (T := ⟨S_, .i32⟩) main_call2_c_0) (TRef.of (T := ⟨S32x512x6, .i32⟩) main_call2_v2) (broadcastInDim S32x512x6 ![] bcast_S_S32x512x6),
    TRef.binary (TRef.of (T := ⟨S32x512x6, .i32⟩) main_v12) (TRef.of (T := ⟨S32x512x6, .i32⟩) main_call2_v2) (TRef.of (T := ⟨S32x512x6, .i32⟩) main_call2_v3) addi,
    TRef.ternary (TRef.of (T := ⟨S32x512x6, .i1⟩) main_call2_v1) (TRef.of (T := ⟨S32x512x6, .i32⟩) main_call2_v3) (TRef.of (T := ⟨S32x512x6, .i32⟩) main_v12) (TRef.of (T := ⟨S32x512x6, .i32⟩) main_call2_v4) select,
    TRef.reshape (TRef.of (T := ⟨S32x512x6, .i32⟩) main_call2_v4) (TRef.of (T := ⟨S32x512x6x1, .i32⟩) main_call2_v5) rfl shapeCasts_S32x512x6_S32x512x6x1 ]

/-- Operations 39–52: the in-bounds mask of the gather indices, the gather itself, and the select that writes NaN where the mask fails. -/
abbrev w3b : List (HloOp τ sig (Elt F)) :=
  [ TRef.nullary (TRef.of (T := ⟨S1, .i32⟩) main_call2_c_1) (constantI S1 32 1513#32),
    TRef.nullary (TRef.of (T := ⟨S_, .i32⟩) main_call2_c_2) (constantI S_ 32 0#32),
    TRef.unary (TRef.of (T := ⟨S_, .i32⟩) main_call2_c_2) (TRef.of (T := ⟨S32x512x6x1, .i32⟩) main_call2_v6) (broadcastInDim S32x512x6x1 ![] bcast_S_S32x512x6x1),
    TRef.binary (TRef.of (T := ⟨S32x512x6x1, .i32⟩) main_call2_v5) (TRef.of (T := ⟨S32x512x6x1, .i32⟩) main_call2_v6) (TRef.of (T := ⟨S32x512x6x1, .i1⟩) main_call2_v7) (cmpi .sge),
    TRef.unary (TRef.of (T := ⟨S1, .i32⟩) main_call2_c_1) (TRef.of (T := ⟨S1x1x1x1, .i32⟩) main_call2_v8) (broadcastInDim S1x1x1x1 ![3] bcast_S1_S1x1x1x1_3),
    TRef.unary (TRef.of (T := ⟨S1x1x1x1, .i32⟩) main_call2_v8) (TRef.of (T := ⟨S32x512x6x1, .i32⟩) main_call2_v9) (broadcastInDim S32x512x6x1 ![0, 1, 2, 3] bcast_S1x1x1x1_S32x512x6x1_0_1_2_3),
    TRef.binary (TRef.of (T := ⟨S32x512x6x1, .i32⟩) main_call2_v5) (TRef.of (T := ⟨S32x512x6x1, .i32⟩) main_call2_v9) (TRef.of (T := ⟨S32x512x6x1, .i1⟩) main_call2_v10) (cmpi .sle),
    TRef.binary (TRef.of (T := ⟨S32x512x6x1, .i1⟩) main_call2_v7) (TRef.of (T := ⟨S32x512x6x1, .i1⟩) main_call2_v10) (TRef.of (T := ⟨S32x512x6x1, .i1⟩) main_call2_v11) andi,
    TRef.nullary (TRef.of (T := ⟨S_, .i1⟩) main_call2_c_3) (constantI S_ 1 1#1),
    TRef.binary (TRef.of (T := ⟨S32x512x6x1, .i1⟩) main_call2_v11) (TRef.of (T := ⟨S_, .i1⟩) main_call2_c_3) (TRef.of (T := ⟨S32x512x6, .i1⟩) main_call2_v12) (fun x v => Host.reduce IntOp.andi x v reducesTo_S32x512x6x1_S32x512x6_d3 h_S_),
    TRef.binary (TRef.of (T := ⟨S32x1514x6, .f32⟩) main_arg0) (TRef.of (T := ⟨S32x512x6x1, .i32⟩) main_call2_v5) (TRef.of (T := ⟨S32x512x6, .f32⟩) main_call2_v13) (fun x i => Host.gather gather_S32x1514x6_S32x512x6x1_S32x512x6_n_1_02_02_1_3_111 x i),
    TRef.nullary (TRef.of (T := ⟨S_, .f32⟩) main_call2_cst) (constant S_ .f32 0x7FC00000#32),
    TRef.unary (TRef.of (T := ⟨S_, .f32⟩) main_call2_cst) (TRef.of (T := ⟨S32x512x6, .f32⟩) main_call2_v14) (broadcastInDim S32x512x6 ![] bcast_S_S32x512x6),
    TRef.ternary (TRef.of (T := ⟨S32x512x6, .i1⟩) main_call2_v12) (TRef.of (T := ⟨S32x512x6, .f32⟩) main_call2_v13) (TRef.of (T := ⟨S32x512x6, .f32⟩) main_call2_v14) (TRef.of (T := ⟨S32x512x6, .f32⟩) main_v13) select ]

/-- Operations 53–77: normalisation by the row sums, the clip, the logarithm, the weighted row sum, its negation, and the final mix with the scalar from the second window. -/
abbrev w4 : List (HloOp τ sig (Elt F)) :=
  [ nullary main_cst_6 (constant S_ .f32 0x00000000#32),
    binary main_v13 main_cst_6 main_v14 ((fun x v => Host.reduceAdd x v reducesTo_S32x512x6_S32x512_d2 h_S_) : (⟨S32x512x6, .f32⟩ : BufTy).Contents (Elt F) → (⟨S_, .f32⟩ : BufTy).Contents (Elt F) → (⟨S32x512, .f32⟩ : BufTy).Contents (Elt F)),
    unary main_v14 main_v15 (broadcastInDim S32x512x1 ![0, 1] bcast_S32x512_S32x512x1_0_1 : (⟨S32x512, .f32⟩ : BufTy).Contents (Elt F) → (⟨S32x512x1, .f32⟩ : BufTy).Contents (Elt F)),
    unary main_v15 main_v16 (broadcastInDim S32x512x6 ![0, 1, 2] bcast_S32x512x1_S32x512x6_0_1_2 : (⟨S32x512x1, .f32⟩ : BufTy).Contents (Elt F) → (⟨S32x512x6, .f32⟩ : BufTy).Contents (Elt F)),
    binary main_v13 main_v16 main_v17 (Host.divf : (⟨S32x512x6, .f32⟩ : BufTy).Contents (Elt F) → (⟨S32x512x6, .f32⟩ : BufTy).Contents (Elt F) → (⟨S32x512x6, .f32⟩ : BufTy).Contents (Elt F)),
    nullary main_cst_7 (constant S_ .f32 0x33D6BF95#32),
    nullary main_cst_8 (constant S_ .f32 0x3F7FFFFE#32),
    TRef.unary (TRef.of (T := ⟨S_, .f32⟩) main_cst_7) (TRef.of (T := ⟨S_, .f32⟩) main_call3_v0) id,
    TRef.unary (TRef.of (T := ⟨S_, .f32⟩) main_call3_v0) (TRef.of (T := ⟨S32x512x6, .f32⟩) main_call3_v1) (broadcastInDim S32x512x6 ![] bcast_S_S32x512x6),
    TRef.binary (TRef.of (T := ⟨S32x512x6, .f32⟩) main_call3_v1) (TRef.of (T := ⟨S32x512x6, .f32⟩) main_v17) (TRef.of (T := ⟨S32x512x6, .f32⟩) main_call3_v2) maximumf,
    TRef.unary (TRef.of (T := ⟨S_, .f32⟩) main_cst_8) (TRef.of (T := ⟨S_, .f32⟩) main_call3_v3) id,
    TRef.unary (TRef.of (T := ⟨S_, .f32⟩) main_call3_v3) (TRef.of (T := ⟨S32x512x6, .f32⟩) main_call3_v4) (broadcastInDim S32x512x6 ![] bcast_S_S32x512x6),
    TRef.binary (TRef.of (T := ⟨S32x512x6, .f32⟩) main_call3_v4) (TRef.of (T := ⟨S32x512x6, .f32⟩) main_call3_v2) (TRef.of (T := ⟨S32x512x6, .f32⟩) main_v18) minimumf,
    unary main_v18 main_v19 (Host.log : (⟨S32x512x6, .f32⟩ : BufTy).Contents (Elt F) → (⟨S32x512x6, .f32⟩ : BufTy).Contents (Elt F)),
    binary main_arg1 main_v19 main_v20 (mulf : (⟨S32x512x6, .f32⟩ : BufTy).Contents (Elt F) → (⟨S32x512x6, .f32⟩ : BufTy).Contents (Elt F) → (⟨S32x512x6, .f32⟩ : BufTy).Contents (Elt F)),
    nullary main_cst_9 (constant S_ .f32 0x00000000#32),
    binary main_v20 main_cst_9 main_v21 ((fun x v => Host.reduceAdd x v reducesTo_S32x512x6_S32x512_d2 h_S_) : (⟨S32x512x6, .f32⟩ : BufTy).Contents (Elt F) → (⟨S_, .f32⟩ : BufTy).Contents (Elt F) → (⟨S32x512, .f32⟩ : BufTy).Contents (Elt F)),
    unary main_v21 main_v22 (Host.negf : (⟨S32x512, .f32⟩ : BufTy).Contents (Elt F) → (⟨S32x512, .f32⟩ : BufTy).Contents (Elt F)),
    nullary main_cst_10 (constant S_ .f32 0x3F666666#32),
    unary main_cst_10 main_v23 (broadcastInDim S32x512 ![] bcast_S_S32x512 : (⟨S_, .f32⟩ : BufTy).Contents (Elt F) → (⟨S32x512, .f32⟩ : BufTy).Contents (Elt F)),
    binary main_v23 main_v22 main_v24 (mulf : (⟨S32x512, .f32⟩ : BufTy).Contents (Elt F) → (⟨S32x512, .f32⟩ : BufTy).Contents (Elt F) → (⟨S32x512, .f32⟩ : BufTy).Contents (Elt F)),
    nullary main_cst_11 (constant S_ .f32 0x3DCCCCCD#32),
    binary main_cst_11 main_v10 main_v25 (mulf : (⟨S_, .f32⟩ : BufTy).Contents (Elt F) → (⟨S_, .f32⟩ : BufTy).Contents (Elt F) → (⟨S_, .f32⟩ : BufTy).Contents (Elt F)),
    unary main_v25 main_v26 (broadcastInDim S32x512 ![] bcast_S_S32x512 : (⟨S_, .f32⟩ : BufTy).Contents (Elt F) → (⟨S32x512, .f32⟩ : BufTy).Contents (Elt F)),
    binary main_v24 main_v26 main_v27 (addf : (⟨S32x512, .f32⟩ : BufTy).Contents (Elt F) → (⟨S32x512, .f32⟩ : BufTy).Contents (Elt F) → (⟨S32x512, .f32⟩ : BufTy).Contents (Elt F)) ]

/-- Running two lists of operations one after the other is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

theorem ops_split : (ops : List (HloOp τ sig (Elt F))) = w1 ++ (w2 ++ (w3a ++ (w3b ++ w4))) := rfl

/-! ### What each window writes, from any contents `W` -/

theorem w1_v0 (W : Valuation τ sig (Elt F)) :
    after (w1 (F := F)) W (Proc.devRef .tc main_v0) = Read.val_main_v0 (F := F) (W (Proc.devRef .tc main_arg3)) := by
  after_results_simp <;> rfl

theorem w1_v1 (W : Valuation τ sig (Elt F)) :
    after (w1 (F := F)) W (Proc.devRef .tc main_v1) = Read.val_main_v1 (F := F) (W (Proc.devRef .tc main_arg3)) := by
  after_results_simp <;> rfl

theorem w2_v10 (W : Valuation τ sig (Elt F)) (x0 : (⟨S32x1514x6, .f32⟩ : BufTy).Contents (Elt F)) (x3 : (⟨S32x1602x6, .f32⟩ : BufTy).Contents (Elt F)) (x4 : (⟨S32x1514x1602, .f32⟩ : BufTy).Contents (Elt F))
    (h0 : W (Proc.devRef .tc main_arg0) = x0) (h4 : W (Proc.devRef .tc main_arg4) = x4)
    (hv0 : W (Proc.devRef .tc main_v0) = Read.val_main_v0 (F := F) x3) (hv1 : W (Proc.devRef .tc main_v1) = Read.val_main_v1 (F := F) x3) :
    after (w2 (F := F)) W (Proc.devRef .tc main_v10) = Read.val_main_v10 (F := F) x0 x3 x4 := by
  after_results_simp
  rw [h0, h4, hv0, hv1]
  rfl

theorem w3a_v5 (W : Valuation τ sig (Elt F)) :
    after (w3a (F := F)) W (Proc.devRef .tc main_call2_v5) = Read.val_main_call2_v5 (F := F) (W (Proc.devRef .tc main_arg2)) := by
  after_results_simp <;> rfl

theorem w3b_v13 (W : Valuation τ sig (Elt F)) (x0 : (⟨S32x1514x6, .f32⟩ : BufTy).Contents (Elt F)) (x2 : (⟨S32x512, .i32⟩ : BufTy).Contents (Elt F))
    (h0 : W (Proc.devRef .tc main_arg0) = x0) (h5 : W (Proc.devRef .tc main_call2_v5) = Read.val_main_call2_v5 (F := F) x2) :
    after (w3b (F := F)) W (Proc.devRef .tc main_v13) = Read.val_main_v13 (F := F) x0 x2 := by
  subst h0
  after_results_simp
  -- the transports between a buffer's own type and the type its value carries are all along `rfl`: drop them, so that
  -- both sides are the same operations applied to the same operands
  simp only [cast_cast, cast_eq]
  rw [h5]
  rfl

theorem w4_v27 (W : Valuation τ sig (Elt F)) (x0 : (⟨S32x1514x6, .f32⟩ : BufTy).Contents (Elt F)) (x1 : (⟨S32x512x6, .f32⟩ : BufTy).Contents (Elt F)) (x2 : (⟨S32x512, .i32⟩ : BufTy).Contents (Elt F)) (x3 : (⟨S32x1602x6, .f32⟩ : BufTy).Contents (Elt F)) (x4 : (⟨S32x1514x1602, .f32⟩ : BufTy).Contents (Elt F))
    (h1 : W (Proc.devRef .tc main_arg1) = x1) (h13 : W (Proc.devRef .tc main_v13) = Read.val_main_v13 (F := F) x0 x2)
    (h10 : W (Proc.devRef .tc main_v10) = Read.val_main_v10 (F := F) x0 x3 x4) :
    after (w4 (F := F)) W (Proc.devRef .tc main_v27) = Read.val_main_v27 (F := F) x0 x1 x2 x3 x4 := by
  after_results_simp
  rw [h1, h13, h10]
  rfl

/-! ### What each window leaves alone -/

theorem w1_keep_main_arg0 (W : Valuation τ sig (Elt F)) :
    after (w1 (F := F)) W (Proc.devRef .tc main_arg0) = W (Proc.devRef .tc main_arg0) := by
  after_results_simp

theorem w1_keep_main_arg1 (W : Valuation τ sig (Elt F)) :
    after (w1 (F := F)) W (Proc.devRef .tc main_arg1) = W (Proc.devRef .tc main_arg1) := by
  after_results_simp

theorem w1_keep_main_arg2 (W : Valuation τ sig (Elt F)) :
    after (w1 (F := F)) W (Proc.devRef .tc main_arg2) = W (Proc.devRef .tc main_arg2) := by
  after_results_simp

theorem w1_keep_main_arg4 (W : Valuation τ sig (Elt F)) :
    after (w1 (F := F)) W (Proc.devRef .tc main_arg4) = W (Proc.devRef .tc main_arg4) := by
  after_results_simp

theorem w2_keep_main_arg0 (W : Valuation τ sig (Elt F)) :
    after (w2 (F := F)) W (Proc.devRef .tc main_arg0) = W (Proc.devRef .tc main_arg0) := by
  after_results_simp

theorem w2_keep_main_arg1 (W : Valuation τ sig (Elt F)) :
    after (w2 (F := F)) W (Proc.devRef .tc main_arg1) = W (Proc.devRef .tc main_arg1) := by
  after_results_simp

theorem w2_keep_main_arg2 (W : Valuation τ sig (Elt F)) :
    after (w2 (F := F)) W (Proc.devRef .tc main_arg2) = W (Proc.devRef .tc main_arg2) := by
  after_results_simp

theorem w3a_keep_main_arg0 (W : Valuation τ sig (Elt F)) :
    after (w3a (F := F)) W (Proc.devRef .tc main_arg0) = W (Proc.devRef .tc main_arg0) := by
  after_results_simp

theorem w3a_keep_main_arg1 (W : Valuation τ sig (Elt F)) :
    after (w3a (F := F)) W (Proc.devRef .tc main_arg1) = W (Proc.devRef .tc main_arg1) := by
  after_results_simp

theorem w3a_keep_main_v10 (W : Valuation τ sig (Elt F)) :
    after (w3a (F := F)) W (Proc.devRef .tc main_v10) = W (Proc.devRef .tc main_v10) := by
  after_results_simp

theorem w3b_keep_main_arg1 (W : Valuation τ sig (Elt F)) :
    after (w3b (F := F)) W (Proc.devRef .tc main_arg1) = W (Proc.devRef .tc main_arg1) := by
  after_results_simp

theorem w3b_keep_main_v10 (W : Valuation τ sig (Elt F)) :
    after (w3b (F := F)) W (Proc.devRef .tc main_v10) = W (Proc.devRef .tc main_v10) := by
  after_results_simp

theorem w4_keep_main_v13 (W : Valuation τ sig (Elt F)) :
    after (w4 (F := F)) W (Proc.devRef .tc main_v13) = W (Proc.devRef .tc main_v13) := by
  after_results_simp

/-! ### The whole line, window by window -/

theorem after_ops (V : Valuation τ sig (Elt F)) :
    after (ops (F := F)) V = after w4 (after w3b (after w3a (after w2 (after w1 V)))) := by
  rw [ops_split, after_append, after_append, after_append, after_append]

/-- The gathered array: a function of the first and third arguments only. -/
theorem ops_v13 (V : Valuation τ sig (Elt F)) :
    after (ops (F := F)) V (Proc.devRef .tc main_v13)
      = Read.val_main_v13 (F := F) (V (Proc.devRef .tc main_arg0)) (V (Proc.devRef .tc main_arg2)) := by
  have a0 : after (w3a (F := F)) (after w2 (after w1 V)) (Proc.devRef .tc main_arg0) = V (Proc.devRef .tc main_arg0) :=
    (w3a_keep_main_arg0 _).trans ((w2_keep_main_arg0 _).trans (w1_keep_main_arg0 _))
  have a2 : after (w2 (F := F)) (after w1 V) (Proc.devRef .tc main_arg2) = V (Proc.devRef .tc main_arg2) :=
    (w2_keep_main_arg2 _).trans (w1_keep_main_arg2 _)
  have h5 : after (w3a (F := F)) (after w2 (after w1 V)) (Proc.devRef .tc main_call2_v5)
      = Read.val_main_call2_v5 (F := F) (V (Proc.devRef .tc main_arg2)) := by
    rw [w3a_v5, a2]
  rw [after_ops, w4_keep_main_v13]
  exact w3b_v13 _ _ _ a0 h5

/-- The loss vector: the named function of the five arguments. -/
theorem ops_v27 (V : Valuation τ sig (Elt F)) :
    after (ops (F := F)) V (Proc.devRef .tc main_v27)
      = Read.val_main_v27 (F := F) (V (Proc.devRef .tc main_arg0)) (V (Proc.devRef .tc main_arg1)) (V (Proc.devRef .tc main_arg2)) (V (Proc.devRef .tc main_arg3)) (V (Proc.devRef .tc main_arg4)) := by
  have a0 : after (w3a (F := F)) (after w2 (after w1 V)) (Proc.devRef .tc main_arg0) = V (Proc.devRef .tc main_arg0) :=
    (w3a_keep_main_arg0 _).trans ((w2_keep_main_arg0 _).trans (w1_keep_main_arg0 _))
  have a2 : after (w2 (F := F)) (after w1 V) (Proc.devRef .tc main_arg2) = V (Proc.devRef .tc main_arg2) :=
    (w2_keep_main_arg2 _).trans (w1_keep_main_arg2 _)
  have h5 : after (w3a (F := F)) (after w2 (after w1 V)) (Proc.devRef .tc main_call2_v5)
      = Read.val_main_call2_v5 (F := F) (V (Proc.devRef .tc main_arg2)) := by
    rw [w3a_v5, a2]
  have h13 : after (w3b (F := F)) (after w3a (after w2 (after w1 V))) (Proc.devRef .tc main_v13)
      = Read.val_main_v13 (F := F) (V (Proc.devRef .tc main_arg0)) (V (Proc.devRef .tc main_arg2)) :=
    w3b_v13 _ _ _ a0 h5
  have h1 : after (w3b (F := F)) (after w3a (after w2 (after w1 V))) (Proc.devRef .tc main_arg1) = V (Proc.devRef .tc main_arg1) :=
    (w3b_keep_main_arg1 _).trans ((w3a_keep_main_arg1 _).trans ((w2_keep_main_arg1 _).trans (w1_keep_main_arg1 _)))
  have h10' : after (w2 (F := F)) (after w1 V) (Proc.devRef .tc main_v10)
      = Read.val_main_v10 (F := F) (V (Proc.devRef .tc main_arg0)) (V (Proc.devRef .tc main_arg3)) (V (Proc.devRef .tc main_arg4)) :=
    w2_v10 _ _ _ _ (w1_keep_main_arg0 _) (w1_keep_main_arg4 _) (w1_v0 _) (w1_v1 _)
  have h10 : after (w3b (F := F)) (after w3a (after w2 (after w1 V))) (Proc.devRef .tc main_v10)
      = Read.val_main_v10 (F := F) (V (Proc.devRef .tc main_arg0)) (V (Proc.devRef .tc main_arg3)) (V (Proc.devRef .tc main_arg4)) :=
    (w3b_keep_main_v10 _).trans ((w3a_keep_main_v10 _).trans h10')
  rw [after_ops]
  exact w4_v27 _ _ _ _ _ _ h1 h13 h10

/-! ### The arguments are never written -/

theorem ops_keep_main_arg0 (V : Valuation τ sig (Elt F)) :
    after (ops (F := F)) V (Proc.devRef .tc main_arg0) = V (Proc.devRef .tc main_arg0) := by
  after_results_simp

theorem ops_keep_main_arg1 (V : Valuation τ sig (Elt F)) :
    after (ops (F := F)) V (Proc.devRef .tc main_arg1) = V (Proc.devRef .tc main_arg1) := by
  after_results_simp

theorem ops_keep_main_arg2 (V : Valuation τ sig (Elt F)) :
    after (ops (F := F)) V (Proc.devRef .tc main_arg2) = V (Proc.devRef .tc main_arg2) := by
  after_results_simp

theorem ops_keep_main_arg3 (V : Valuation τ sig (Elt F)) :
    after (ops (F := F)) V (Proc.devRef .tc main_arg3) = V (Proc.devRef .tc main_arg3) := by
  after_results_simp

theorem ops_keep_main_arg4 (V : Valuation τ sig (Elt F)) :
    after (ops (F := F)) V (Proc.devRef .tc main_arg4) = V (Proc.devRef .tc main_arg4) := by
  after_results_simp

/-- The run of the reference program. Started on any mesh from a memory `m` whose counters are all zero, every weakly
    fair execution terminates; in its final memory, on each device, the two result buffers hold `Read.val_main_v27`
    and `Read.val_main_v13` of what the five argument buffers held in `m`, and each argument buffer still holds what
    it held in `m`. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = Cert.ReferenceIdeal.Read.val_main_v27 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v13) = Cert.ReferenceIdeal.Read.val_main_v13 (F := F) (m ((c.tc : Thread nD τ).loc main_arg0)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v27).trans (ops_v27 (launchContents m c)),
      (h c main_v13).trans (ops_v13 (launchContents m c)),
      (h c main_arg0).trans (ops_keep_main_arg0 (launchContents m c)),
      (h c main_arg1).trans (ops_keep_main_arg1 (launchContents m c)),
      (h c main_arg2).trans (ops_keep_main_arg2 (launchContents m c)),
      (h c main_arg3).trans (ops_keep_main_arg3 (launchContents m c)),
      (h c main_arg4).trans (ops_keep_main_arg4 (launchContents m c))⟩)
    (run_seq scopedRefs_eq scopedSems_eq defs main (fun _ => ops) main_eq (fun _ => ops_sub) m ρ)

end Cert.ReferenceIdeal.RefRun

end
-- ==== Proof.LibSumIdx3.lean ====
/-
  A sum over a rank-3 index set, by coordinates.

  An index of the shape [n0, n1, n2] is a triple of coordinates, one below each extent, so the index set is in
  bijection with the product Fin n0 × Fin n1 × Fin n2 and a sum over it is the triple sum over the coordinates,
  the outermost coordinate first.  This is the rank-3 companion of the rank-2 statement
  (`ValueIdx.idxEquiv2`, `ValueIdx.sum_idx2`) and is proved the same way.
-/
import Idealize.ShloMosaic.Lib.ValueIdx

noncomputable section

open scoped BigOperators

namespace Idealize.ShloMosaic.ValueIdx3

open Idealize.ShloMosaic Idealize.ShloMosaic.ValueIdx

/-- A rank-3 index set is the product of its three coordinate ranges: an index goes to its coordinates, and a
    triple of coordinates to the index `ix3` builds from them … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates, in the order of the axes. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.ValueIdx3

end
-- ==== Proof.RefLoss.lean ====
/-
  The reference's second loss term is the specification's direct evaluation.

  The reference clips the weights twice (to [0, 1] and to [-1, 0]), contracts the features with each clipped array over
  the 1602 feature columns, multiplies the first contraction by one minus the predictions and the second by the
  predictions, sums each product array over all of its entries starting from zero, and subtracts the second sum from
  the first.  Read entry by entry on the extended reals this is, term for term, the expression the specification calls
  `direct`: the only rearrangement is that a sum over the index set of a rank-3 array is written as the triple sum over
  its coordinates.  No finiteness is used.
-/
import proofs.«176934_j12687333393051_2_alg».proof.Proof.RefReadP
import proofs.«176934_j12687333393051_2_alg».proof.Proof.LossSpec
import proofs.«176934_j12687333393051_2_alg».proof.Proof.LibSumIdx3
import Idealize.ShloMosaic.Lib.ValueIdx
import Idealize.ShloMosaic.PureOps.Ideal.Laws

noncomputable section

open scoped BigOperators

namespace Cert.ReferenceIdeal.RefLoss

open Cert.ReferenceIdeal Cert.ReferenceIdeal.Read Idealize.ShloMosaic Idealize.ShloMosaic.ValueIdx Cert.Loss2
open Idealize.ShloMosaic.ValueIdx3

/-- The first clipped weight array at coordinates: the minimum of one and the maximum of zero and the weight. -/
theorem v0_ix (x3 : (⟨S32x1602x6, .f32⟩ : BufTy).Contents (Elt Ideal)) (b : Fin 32) (j : Fin 1602) (c : Fin 6) :
    val_main_v0 (F := Ideal) x3 (ix3 b j c) = wPos x3 b j c := by
  rw [val_main_v0_apply, val_main_call0_v4_apply, val_main_call0_v3_apply, val_main_cst_0_apply,
    val_main_call0_v2_apply, val_main_call0_v1_apply, val_main_call0_v0_apply, val_main_cst_apply]
  rfl

/-- The second clipped weight array at coordinates: the minimum of zero and the maximum of minus one and the weight. -/
theorem v1_ix (x3 : (⟨S32x1602x6, .f32⟩ : BufTy).Contents (Elt Ideal)) (b : Fin 32) (j : Fin 1602) (c : Fin 6) :
    val_main_v1 (F := Ideal) x3 (ix3 b j c) = wNeg x3 b j c := by
  rw [val_main_v1_apply, val_main_call1_v4_apply, val_main_call1_v3_apply, val_main_cst_2_apply,
    val_main_call1_v2_apply, val_main_call1_v1_apply, val_main_call1_v0_apply, val_main_cst_1_apply]
  rfl

/-- The first contraction at coordinates: row r of batch b against column c of the first clipped weights. -/
theorem v2_ix (x3 : (⟨S32x1602x6, .f32⟩ : BufTy).Contents (Elt Ideal))
    (x4 : (⟨S32x1514x1602, .f32⟩ : BufTy).Contents (Elt Ideal)) (b : Fin 32) (r : Fin 1514) (c : Fin 6) :
    val_main_v2 (F := Ideal) x3 x4 (ix3 b r c) = fPos x3 x4 b r c := by
  rw [val_main_v2_apply]
  unfold fPos
  refine Finset.sum_congr rfl fun k _ => ?_
  have el : lidx_main_v2 (ix3 b r c) k = ix3 b r k := funext fun a => Fin.ext (by
    match a with | ⟨0, _⟩ => rfl | ⟨1, _⟩ => rfl | ⟨2, _⟩ => rfl)
  have er : ridx_main_v2 (ix3 b r c) k = ix3 b k c := funext fun a => Fin.ext (by
    match a with | ⟨0, _⟩ => rfl | ⟨1, _⟩ => rfl | ⟨2, _⟩ => rfl)
  rw [el, er, v0_ix]

/-- The second contraction at coordinates: row r of batch b against column c of the second clipped weights. -/
theorem v3_ix (x3 : (⟨S32x1602x6, .f32⟩ : BufTy).Contents (Elt Ideal))
    (x4 : (⟨S32x1514x1602, .f32⟩ : BufTy).Contents (Elt Ideal)) (b : Fin 32) (r : Fin 1514) (c : Fin 6) :
    val_main_v3 (F := Ideal) x3 x4 (ix3 b r c) = fNeg x3 x4 b r c := by
  rw [val_main_v3_apply]
  unfold fNeg
  refine Finset.sum_congr rfl fun k _ => ?_
  have el : lidx_main_v3 (ix3 b r c) k = ix3 b r k := funext fun a => Fin.ext (by
    match a with | ⟨0, _⟩ => rfl | ⟨1, _⟩ => rfl | ⟨2, _⟩ => rfl)
  have er : ridx_main_v3 (ix3 b r c) k = ix3 b k c := funext fun a => Fin.ext (by
    match a with | ⟨0, _⟩ => rfl | ⟨1, _⟩ => rfl | ⟨2, _⟩ => rfl)
  rw [el, er, v1_ix]

/-- The first product array at coordinates: one minus the prediction, times the first contraction. -/
theorem v6_ix (x0 : (⟨S32x1514x6, .f32⟩ : BufTy).Contents (Elt Ideal)) (x3 : (⟨S32x1602x6, .f32⟩ : BufTy).Contents (Elt Ideal))
    (x4 : (⟨S32x1514x1602, .f32⟩ : BufTy).Contents (Elt Ideal)) (b : Fin 32) (r : Fin 1514) (c : Fin 6) :
    val_main_v6 (F := Ideal) x0 x3 x4 (ix3 b r c) = (oneW - x0 (ix3 b r c)) * fPos x3 x4 b r c := by
  rw [val_main_v6_apply, val_main_v5_apply, val_main_v4_apply, val_main_cst_3_apply, v2_ix]
  rfl

/-- The second product array at coordinates: the prediction times the second contraction. -/
theorem v8_ix (x0 : (⟨S32x1514x6, .f32⟩ : BufTy).Contents (Elt Ideal)) (x3 : (⟨S32x1602x6, .f32⟩ : BufTy).Contents (Elt Ideal))
    (x4 : (⟨S32x1514x1602, .f32⟩ : BufTy).Contents (Elt Ideal)) (b : Fin 32) (r : Fin 1514) (c : Fin 6) :
    val_main_v8 (F := Ideal) x0 x3 x4 (ix3 b r c) = x0 (ix3 b r c) * fNeg x3 x4 b r c := by
  rw [val_main_v8_apply, v3_ix]
  rfl

/-- The reference's loss scalar is the direct evaluation: each of its two totals is zero plus the sum of a product
    array over all entries, the sum written by coordinates. -/
theorem loss2_eq (x0 : (⟨Cert.ReferenceIdeal.S32x1514x6, .f32⟩ : BufTy).Contents (Elt Ideal))
    (x3 : (⟨Cert.ReferenceIdeal.S32x1602x6, .f32⟩ : BufTy).Contents (Elt Ideal))
    (x4 : (⟨Cert.ReferenceIdeal.S32x1514x1602, .f32⟩ : BufTy).Contents (Elt Ideal)) (i : Cert.ReferenceIdeal.S_.Idx) :
    Cert.ReferenceIdeal.Read.val_main_v10 (F := Ideal) x0 x3 x4 i = Cert.Loss2.direct x0 x3 x4 := by
  rw [val_main_v10_apply, val_main_v7_apply, val_main_v9_apply, val_main_cst_4_apply, val_main_cst_5_apply,
    sum_idx3, sum_idx3]
  simp only [v6_ix, v8_ix]
  rfl

end Cert.ReferenceIdeal.RefLoss

end
-- ==== Proof.LossLaw.lean ====
/-
  The streaming and the direct evaluation of the second loss term agree when the three arrays are finite.

  On the extended reals a - b is a + (-b) and ⊤ + ⊥ = ⊥, so a sum of differences is not the difference of the sums
  in general, and sums cannot be regrouped across infinities.  When every entry of the three arrays is a real number,
  every quantity of the specification is the image of a real number: the clipped weights, the contractions, the two
  products, the entries, the chunk sums and the accumulator.  Both evaluations are then images of real numbers, and the
  two real numbers are equal: the rows 0 … 1513 are the eleven chunks of 136 rows followed by the last 18 rows, finite
  sums over rows and classes commute, and a finite sum of differences is the difference of the sums.
-/
import proofs.«176934_j12687333393051_2_alg».proof.Proof.LossSpec
import Idealize.ShloMosaic.PureOps.Ideal.Laws
import Mathlib.Algebra.BigOperators.Fin
import Mathlib.Data.EReal.Operations

noncomputable section

namespace Cert.Loss2

open Idealize.ShloMosaic Idealize.ShloMosaic.ValueIdx

/-! ## The three words are real numbers -/

/-- The word for 0.0 is the real number zero. -/
theorem zeroW_eq : zeroW = ((0 : ℝ) : EReal) := by
  rw [EReal.coe_zero]; exact Ideal.ofBits_zero_f32

/-- The word for 1.0 is the real number one. -/
theorem oneW_eq : oneW = ((1 : ℝ) : EReal) := by
  simp [Ideal.ofBits, Ideal.ieee, -EReal.coe_mul]; norm_num

/-- The word for -1.0 is the real number minus one. -/
theorem negOneW_eq : negOneW = ((-1 : ℝ) : EReal) := by
  simp [Ideal.ofBits, Ideal.ieee, -EReal.coe_mul, -EReal.coe_neg]; norm_num

/-! ## Images of real numbers are closed under finite sums, minimum and maximum -/

/-- A finite sum of images of reals is the image of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert i s hi ih => rw [Finset.sum_insert hi, Finset.sum_insert hi, ih, EReal.coe_add]

/-- The minimum of two images is the image of the minimum. -/
theorem coe_min (x y : ℝ) : min (x : EReal) (y : EReal) = ((min x y : ℝ) : EReal) :=
  (EReal.coe_strictMono.monotone.map_min).symm

/-- The maximum of two images is the image of the maximum. -/
theorem coe_max (x y : ℝ) : max (x : EReal) (y : EReal) = ((max x y : ℝ) : EReal) :=
  (EReal.coe_strictMono.monotone.map_max).symm

/-! ## The specification over real arrays -/

section Real

variable (a : YIdx → ℝ) (ω : WIdx → ℝ) (φ : FIdx → ℝ)

/-- The real weight clipped to [0, 1]. -/
def wPosR (b : Fin 32) (j : Fin 1602) (c : Fin 6) : ℝ := min 1 (max 0 (ω (ix3 b j c)))

/-- The real weight clipped to [-1, 0]. -/
def wNegR (b : Fin 32) (j : Fin 1602) (c : Fin 6) : ℝ := min 0 (max (-1) (ω (ix3 b j c)))

/-- The first product of entry (b, i, c). -/
def posR (b : Fin 32) (i : Fin 1514) (c : Fin 6) : ℝ :=
  (1 - a (ix3 b i c)) * ∑ j : Fin 1602, φ (ix3 b i j) * wPosR ω b j c

/-- The second product of entry (b, i, c). -/
def negR (b : Fin 32) (i : Fin 1514) (c : Fin 6) : ℝ :=
  a (ix3 b i c) * ∑ j : Fin 1602, φ (ix3 b i j) * wNegR ω b j c

/-- What entry (b, i, c) contributes: the difference of the two products. -/
def entryR (b : Fin 32) (i : Fin 1514) (c : Fin 6) : ℝ := posR a ω φ b i c - negR a ω φ b i c

/-- One chunk's real sum. -/
def chunkSumR (b : Fin 32) (k : Fin 11) : ℝ := ∑ c : Fin 6, ∑ r : Fin 136, entryR a ω φ b (chunkRow k r) c

/-- The last rows' real sum. -/
def tailSumR (b : Fin 32) : ℝ := ∑ c : Fin 6, ∑ r : Fin 18, entryR a ω φ b (tailRow r) c

local notation "ya" => (fun i : YIdx => ((a i : ℝ) : EReal))
local notation "wa" => (fun i : WIdx => ((ω i : ℝ) : EReal))
local notation "fa" => (fun i : FIdx => ((φ i : ℝ) : EReal))

theorem wPos_coe (b : Fin 32) (j : Fin 1602) (c : Fin 6) : wPos wa b j c = ((wPosR ω b j c : ℝ) : EReal) := by
  simp only [wPos, wPosR, zeroW_eq, oneW_eq, coe_max, coe_min]

theorem wNeg_coe (b : Fin 32) (j : Fin 1602) (c : Fin 6) : wNeg wa b j c = ((wNegR ω b j c : ℝ) : EReal) := by
  simp only [wNeg, wNegR, zeroW_eq, negOneW_eq, coe_max, coe_min]

theorem pos_coe (b : Fin 32) (i : Fin 1514) (c : Fin 6) :
    (oneW - ya (ix3 b i c)) * fPos wa fa b i c = ((posR a ω φ b i c : ℝ) : EReal) := by
  simp only [fPos, posR, wPos_coe, oneW_eq, ← EReal.coe_mul, coe_sum, ← EReal.coe_sub]

theorem neg_coe (b : Fin 32) (i : Fin 1514) (c : Fin 6) :
    ya (ix3 b i c) * fNeg wa fa b i c = ((negR a ω φ b i c : ℝ) : EReal) := by
  simp only [fNeg, negR, wNeg_coe, ← EReal.coe_mul, coe_sum]

theorem entry_coe (b : Fin 32) (i : Fin 1514) (c : Fin 6) :
    entry ya wa fa b i c = ((entryR a ω φ b i c : ℝ) : EReal) := by
  rw [entry, pos_coe, neg_coe, ← EReal.coe_sub, entryR]

theorem chunkSum_coe (b : Fin 32) (k : Fin 11) : chunkSum ya wa fa b k = ((chunkSumR a ω φ b k : ℝ) : EReal) := by
  simp only [chunkSum, chunkSumR, entry_coe, coe_sum]

theorem tailSum_coe (b : Fin 32) : tailSum ya wa fa b = ((tailSumR a ω φ b : ℝ) : EReal) := by
  simp only [tailSum, tailSumR, entry_coe, coe_sum]

/-- The accumulator before chunk n is the image of the sum of the chunk sums before n. -/
theorem accBefore_coe (b : Fin 32) (n : ℕ) :
    accBefore ya wa fa b n
      = ((∑ k ∈ Finset.range n, (if h : k < 11 then chunkSumR a ω φ b ⟨k, h⟩ else 0) : ℝ) : EReal) := by
  induction n with
  | zero => rw [accBefore, Finset.range_zero, Finset.sum_empty]; exact zeroW_eq
  | succ n ih =>
    rw [accBefore, Finset.sum_range_succ]
    by_cases h : n < 11
    · rw [dif_pos h, dif_pos h, ih, chunkSum_coe, ← EReal.coe_add]
    · rw [dif_neg h, dif_neg h, ih, add_zero]

/-- After the eleven chunks the accumulator is the image of the sum of the eleven chunk sums. -/
theorem accBefore_eleven (b : Fin 32) :
    accBefore ya wa fa b 11 = ((∑ k : Fin 11, chunkSumR a ω φ b k : ℝ) : EReal) := by
  rw [accBefore_coe, ← Fin.sum_univ_eq_sum_range]
  exact congrArg _ (Finset.sum_congr rfl (fun k _ => dif_pos k.isLt))

theorem streamed_coe :
    streamed ya wa fa
      = ((0 + ∑ b : Fin 32, ((∑ k : Fin 11, chunkSumR a ω φ b k) + tailSumR a ω φ b) : ℝ) : EReal) := by
  simp only [streamed, batchTotal, accBefore_eleven, tailSum_coe, zeroW_eq, ← EReal.coe_add, coe_sum]

theorem direct_coe :
    direct ya wa fa
      = (((0 + ∑ b : Fin 32, ∑ i : Fin 1514, ∑ c : Fin 6, posR a ω φ b i c)
          - (0 + ∑ b : Fin 32, ∑ i : Fin 1514, ∑ c : Fin 6, negR a ω φ b i c) : ℝ) : EReal) := by
  simp only [direct, pos_coe, neg_coe, zeroW_eq, coe_sum, ← EReal.coe_add, ← EReal.coe_sub]

/-! ## The identity of real numbers -/

/-- The 1514 rows are the eleven chunks of 136 rows followed by the last 18 rows. -/
theorem rows_split (g : Fin 1514 → ℝ) :
    ∑ i : Fin 1514, g i
      = ∑ k : Fin 11, ∑ r : Fin 136, g (chunkRow k r) + ∑ r : Fin 18, g (tailRow r) := by
  rw [show (∑ i : Fin 1514, g i) = ∑ i : Fin (11 * 136 + 18), g i from rfl, Fin.sum_univ_add]
  congr 1
  rw [← Equiv.sum_comp finProdFinEquiv, Fintype.sum_prod_type]
  refine Finset.sum_congr rfl (fun k _ => Finset.sum_congr rfl (fun r _ => congrArg g (Fin.ext ?_)))
  exact Nat.add_comm (r : ℕ) (136 * (k : ℕ))

/-- One batch: the eleven chunk sums and the last rows' sum add up to the sum over all rows and classes. -/
theorem batch_law (e : Fin 1514 → Fin 6 → ℝ) :
    (∑ k : Fin 11, ∑ c : Fin 6, ∑ r : Fin 136, e (chunkRow k r) c) + ∑ c : Fin 6, ∑ r : Fin 18, e (tailRow r) c
      = ∑ i : Fin 1514, ∑ c : Fin 6, e i c := by
  calc (∑ k : Fin 11, ∑ c : Fin 6, ∑ r : Fin 136, e (chunkRow k r) c) + ∑ c : Fin 6, ∑ r : Fin 18, e (tailRow r) c
      = (∑ c : Fin 6, ∑ k : Fin 11, ∑ r : Fin 136, e (chunkRow k r) c)
          + ∑ c : Fin 6, ∑ r : Fin 18, e (tailRow r) c := by
        rw [Finset.sum_comm (f := fun (k : Fin 11) (c : Fin 6) => ∑ r : Fin 136, e (chunkRow k r) c)]
    _ = ∑ c : Fin 6, ∑ i : Fin 1514, e i c := by
        rw [← Finset.sum_add_distrib]
        exact Finset.sum_congr rfl (fun c _ => (rows_split (fun i => e i c)).symm)
    _ = ∑ i : Fin 1514, ∑ c : Fin 6, e i c := Finset.sum_comm

/-- The two real evaluations agree. -/
theorem real_law :
    (0 + ∑ b : Fin 32, ((∑ k : Fin 11, chunkSumR a ω φ b k) + tailSumR a ω φ b))
      = (0 + ∑ b : Fin 32, ∑ i : Fin 1514, ∑ c : Fin 6, posR a ω φ b i c)
          - (0 + ∑ b : Fin 32, ∑ i : Fin 1514, ∑ c : Fin 6, negR a ω φ b i c) := by
  have hb : ∀ b : Fin 32, (∑ k : Fin 11, chunkSumR a ω φ b k) + tailSumR a ω φ b
      = (∑ i : Fin 1514, ∑ c : Fin 6, posR a ω φ b i c) - ∑ i : Fin 1514, ∑ c : Fin 6, negR a ω φ b i c := by
    intro b
    simp only [chunkSumR, tailSumR]
    rw [batch_law (fun i c => entryR a ω φ b i c)]
    simp only [entryR, Finset.sum_sub_distrib]
  simp only [hb, Finset.sum_sub_distrib, zero_add]

end Real

/-! ## The law -/

/-- With finite arrays the streaming and the direct evaluation are the same extended real. -/
theorem streamed_eq_direct (yp : YIdx → EReal) (w : WIdx → EReal) (ft : FIdx → EReal)
    (hyp : ∀ i, ∃ r : ℝ, yp i = (r : EReal)) (hw : ∀ i, ∃ r : ℝ, w i = (r : EReal))
    (hft : ∀ i, ∃ r : ℝ, ft i = (r : EReal)) :
    streamed yp w ft = direct yp w ft := by
  choose a ha using hyp
  choose ω hω using hw
  choose φ hφ using hft
  obtain rfl : yp = fun i => ((a i : ℝ) : EReal) := funext ha
  obtain rfl : w = fun i => ((ω i : ℝ) : EReal) := funext hω
  obtain rfl : ft = fun i => ((φ i : ℝ) : EReal) := funext hφ
  rw [streamed_coe, direct_coe, real_law]

end Cert.Loss2

end
-- ==== Proof.FiniteArgs.lean ====
/-
  The precondition makes the predictions, the weights and the features real-valued.

  The precondition states, for each floating-point argument array x, that the conjunction over all entries of
  "|x| < +∞" is true, and that the conjunction of these four statements is true.  A conjunction of bits that is one has
  every conjunct one; a conjunction over all the entries of an array that is one has every entry one; and an extended
  real whose absolute value max(x, -x) lies strictly below +∞ is neither infinity, hence a real number.
-/
import proofs.«176934_j12687333393051_2_alg».proof.Defs
import proofs.«176934_j12687333393051_2_alg».proof.Proof.Gen.Pre_finite_inputs
import proofs.«176934_j12687333393051_2_alg».proof.Proof.Gen.KernelIdeal
import Idealize.ShloMosaic.Lib.ReduceAll
import Idealize.ShloMosaic.Lib.ValueIdx

noncomputable section

namespace Cert.FiniteArgs

open Idealize.ShloMosaic Idealize.SL.Sem Idealize.ShloMosaic.ValueIdx

/-- The scalar shape has one index. -/
instance : Subsingleton Cert.Pre_finite_inputs.S_.Idx := ⟨fun a b => funext fun d => d.elim0⟩

/-- The word 0x7F800000 is +∞. -/
theorem inf_word : Ideal.ofBits .f32 0x7F800000#32 = (⊤ : EReal) := by simp [Ideal.ofBits, Ideal.ieee]

/-- An extended real whose absolute value compares strictly below +∞ is a real number. -/
theorem real_of_abs_lt (x : EReal)
    (h : Ideal.cmp .olt (max x (-x)) (Ideal.ofBits .f32 0x7F800000#32) = 1#1) : ∃ r : ℝ, x = (r : EReal) := by
  rw [inf_word] at h
  unfold Ideal.cmp at h
  induction x using EReal.rec with
  | bot => simp at h
  | coe r => exact ⟨r, rfl⟩
  | top => simp at h

/-- If "|x| < +∞" holds of every entry of an array, in the form the precondition spells it (the conjunction over all
    entries, starting from true, is true), then every entry is a real number. -/
theorem all_real {s : Shape} {axes : List (Fin s.rank)} (x : FVec Ideal s .f32)
    (bc : Cert.Pre_finite_inputs.S_.BroadcastsInDim s (![] : Fin 0 → Fin s.rank))
    (red : s.ReducesTo axes Cert.Pre_finite_inputs.S_) (h0 : 0 < Cert.Pre_finite_inputs.S_.numel)
    (e : Host.reduce IntOp.andi
          (cmpf .olt (Host.absf x) (broadcastInDim s ![] bc (constant Cert.Pre_finite_inputs.S_ .f32 0x7F800000#32)))
          (constantI Cert.Pre_finite_inputs.S_ 1 1#1) red h0 ix0 = 1#1)
    (i : s.Idx) : ∃ r : ℝ, x i = (r : EReal) :=
  real_of_abs_lt (x i) (Host.reduce_andi_all _ _ red h0 ix0 e i)

/-- Under the precondition the predictions, the weights and the features hold real numbers only. -/
theorem real_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread _ Cert.KernelIdeal.τ).loc Cert.KernelIdeal.main_arg0) i = (r : EReal))
    ∧ (∀ i, ∃ r : ℝ, m ((c.tc : Thread _ Cert.KernelIdeal.τ).loc Cert.KernelIdeal.main_arg3) i = (r : EReal))
    ∧ (∀ i, ∃ r : ℝ, m ((c.tc : Thread _ Cert.KernelIdeal.τ).loc Cert.KernelIdeal.main_arg4) i = (r : EReal)) := by
  have e := congrFun (h c) ix0
  dsimp only [Cert.Pre_finite_inputs.fn, Cert.Pre_finite_inputs.fn_part1] at e
  change IntOp.andi (IntOp.andi (IntOp.andi _ _) _) _ = 1#1 at e
  rw [IntOp.andi_eq_one, IntOp.andi_eq_one, IntOp.andi_eq_one] at e
  obtain ⟨⟨⟨e0, -⟩, e3⟩, e4⟩ := e
  exact ⟨all_real _ _ _ _ e0, all_real _ _ _ _ e3, all_real _ _ _ _ e4⟩

end Cert.FiniteArgs

end
-- ==== Proof.lean ====
/-
  The kernel against its reference, at the exact instance.

  Both programs return the same gathered predictions and the same first loss term, computed by the same host lines from
  the same arguments; they differ in the second loss term only.  The kernel streams it: per batch, eleven chunks of 136
  rows and the last 18 rows, each row's (1 - prediction) times its contraction with the weights clipped to [0, 1] minus
  the prediction times its contraction with the weights clipped to [-1, 0], summed, and then the 32 batches' totals
  summed on the host.  The reference sums the two products separately over all entries and subtracts.  On finite inputs
  every quantity is a real number and the two arrangements of the one finite sum agree; on the extended reals they need
  not, so the equality uses that the predictions, the weights and the features are finite.

  The three frames are the programs' own runs with the values dropped; the idealization rewrote nothing.
-/
import proofs.«176934_j12687333393051_2_alg».proof.Defs
import proofs.«176934_j12687333393051_2_alg».proof.Proof.Gen.Kernel
import proofs.«176934_j12687333393051_2_alg».proof.Proof.Gen.Kernel.Frame
import proofs.«176934_j12687333393051_2_alg».proof.Proof.Gen.KernelIdeal
import proofs.«176934_j12687333393051_2_alg».proof.Proof.Gen.KernelIdeal.Frame
import proofs.«176934_j12687333393051_2_alg».proof.Proof.Gen.ReferenceIdeal
import proofs.«176934_j12687333393051_2_alg».proof.Proof.Gen.Pre_finite_inputs
import proofs.«176934_j12687333393051_2_alg».proof.Proof.KernelRun
import proofs.«176934_j12687333393051_2_alg».proof.Proof.RefRun
import proofs.«176934_j12687333393051_2_alg».proof.Proof.RefLoss
import proofs.«176934_j12687333393051_2_alg».proof.Proof.LossLaw
import proofs.«176934_j12687333393051_2_alg».proof.Proof.FiniteArgs
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the two results dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.RefRun.run (F := Ideal) m ρ)

/-- From memories agreeing on the arguments both programs end with the same gathered predictions and the same loss:
    the first loss term and the mixing are the same host lines, and the second term's two evaluations agree on finite inputs. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.KRun.lossOut m c, fun c => Cert.KernelIdeal.KRun.gatherOut m c, Cert.KernelIdeal.KRun.run m ρ, ?_⟩
  refine (θ_run Cert.ReferenceIdeal.defs _ _).mono (fun _ h c => ?_) (Cert.ReferenceIdeal.RefRun.run (F := Ideal) m' ρ')
  obtain ⟨h27, h13, a0, a1, a2, a3, a4⟩ := h c
  obtain ⟨g0, g1, g2, g3, g4⟩ := hagree c
  obtain ⟨f0, f3, f4⟩ := Cert.FiniteArgs.real_of_pre m hpre c
  refine ⟨h27.trans ?_, h13.trans ?_, a0, a1, a2, a3, a4⟩
  · rw [g0, g1, g2, g3, g4, Cert.KernelIdeal.Tail.ref_mix]
    refine congrArg (Cert.KernelIdeal.Tail.mix _) (funext fun i => ?_)
    rw [Cert.ReferenceIdeal.RefLoss.loss2_eq]
    refine (Cert.Loss2.streamed_eq_direct _ _ _ f0 f3 f4).symm.trans ?_
    exact (Cert.KernelIdeal.Val.hostSum_totals m c i).symm
  · rw [g0, g2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
